-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x64 : Shape := ⟨3, ![3, 128, 64]⟩
abbrev S64 : Shape := ⟨1, ![64]⟩
abbrev S3x64x128 : Shape := ⟨3, ![3, 64, 128]⟩
abbrev S128 : Shape := ⟨1, ![128]⟩
abbrev S3x128x256 : Shape := ⟨3, ![3, 128, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x64 : S_.BroadcastsInDim S3x128x64 (![] : Fin 0 → Fin S3x128x64.rank)
  reducesTo_S3x128x64_S_d0_1_2 : S3x128x64.ReducesTo [0, 1, 2] S_
  bcast_S_S64 : S_.BroadcastsInDim S64 (![] : Fin 0 → Fin S64.rank)
  reducesTo_S64_S_d0 : S64.ReducesTo [0] S_
  bcast_S_S3x64x128 : S_.BroadcastsInDim S3x64x128 (![] : Fin 0 → Fin S3x64x128.rank)
  reducesTo_S3x64x128_S_d0_1_2 : S3x64x128.ReducesTo [0, 1, 2] S_
  bcast_S_S128 : S_.BroadcastsInDim S128 (![] : Fin 0 → Fin S128.rank)
  reducesTo_S128_S_d0 : S128.ReducesTo [0] S_
  bcast_S_S3x128x256 : S_.BroadcastsInDim S3x128x256 (![] : Fin 0 → Fin S3x128x256.rank)
  reducesTo_S3x128x256_S_d0_1_2 : S3x128x256.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S128 .f32) (main_arg7 : FVec F S3x128x256 .f32) (main_arg8 : FVec F S256 .f32) (main_v13 : IVec S_ 1) (main_v16 : IVec S3x64x128 1) : IVec S_ 1 :=
  let main_c_5 : IVec S_ 1 := constantI S_ 1 1#1
  let main_v17 : IVec S_ 1 := (fun x v => Host.reduce IntOp.andi x v reducesTo_S3x64x128_S_d0_1_2 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x256 .f32 := Host.absf main_arg7
  let main_cst_8 : FVec F S_ .f32 := constant S_ .f32 0x7F800000#32
  let main_v25 : FVec F S3x128x256 .f32 := broadcastInDim S3x128x256 ![] bcast_S_S3x128x256 main_cst_8
  let main_v26 : IVec S3x128x256 1 := cmpf .olt main_v24 main_v25
  let main_c_9 : IVec S_ 1 := constantI S_ 1 1#1
  let main_v27 : IVec S_ 1 := (fun x v => Host.reduce IntOp.andi x v reducesTo_S3x128x256_S_d0_1_2 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S3x128x64 .f32) (main_arg4 : FVec F S64 .f32) (main_arg5 : FVec F S3x64x128 .f32) (main_arg6 : FVec F S128 .f32) (main_arg7 : FVec F S3x128x256 .f32) (main_arg8 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x64 .f32 := Host.absf main_arg3
  let main_cst_0 : FVec F S_ .f32 := constant S_ .f32 0x7F800000#32
  let main_v5 : FVec F S3x128x64 .f32 := broadcastInDim S3x128x64 ![] bcast_S_S3x128x64 main_cst_0
  let main_v6 : IVec S3x128x64 1 := cmpf .olt main_v4 main_v5
  let main_c_1 : IVec S_ 1 := constantI S_ 1 1#1
  let main_v7 : IVec S_ 1 := (fun x v => Host.reduce IntOp.andi x v reducesTo_S3x128x64_S_d0_1_2 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x128 .f32 := Host.absf main_arg5
  let main_cst_4 : FVec F S_ .f32 := constant S_ .f32 0x7F800000#32
  let main_v15 : FVec F S3x64x128 .f32 := broadcastInDim S3x64x128 ![] bcast_S_S3x64x128 main_cst_4
  let main_v16 : IVec S3x64x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x64 : Shape := ⟨3, ![3, 128, 64]⟩
abbrev S64 : Shape := ⟨1, ![64]⟩
abbrev S3x64x128 : Shape := ⟨3, ![3, 64, 128]⟩
abbrev S128 : Shape := ⟨1, ![128]⟩
abbrev S3x128x256 : Shape := ⟨3, ![3, 128, 256]⟩
abbrev S256 : Shape := ⟨1, ![256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x64 : Shape := ⟨2, ![1, 64]⟩
abbrev S100000x64 : Shape := ⟨2, ![100000, 64]⟩
abbrev S4000x128 : Shape := ⟨2, ![4000, 128]⟩
abbrev S4000x64 : Shape := ⟨2, ![4000, 64]⟩
abbrev S1x128x64 : Shape := ⟨3, ![1, 128, 64]⟩
abbrev S128x64 : Shape := ⟨2, ![128, 64]⟩
abbrev S1600000x64 : Shape := ⟨2, ![1600000, 64]⟩
abbrev S1x128 : Shape := ⟨2, ![1, 128]⟩
abbrev S1x64x128 : Shape := ⟨3, ![1, 64, 128]⟩
abbrev S64x128 : Shape := ⟨2, ![64, 128]⟩
abbrev S1x256 : Shape := ⟨2, ![1, 256]⟩
abbrev S100000x256 : Shape := ⟨2, ![100000, 256]⟩
abbrev S4000x256 : Shape := ⟨2, ![4000, 256]⟩
abbrev S1x128x256 : Shape := ⟨3, ![1, 128, 256]⟩
abbrev S128x256 : Shape := ⟨2, ![128, 256]⟩

abbrev nBuf : Space → Nat
  | .hbm => 165
  | .vmem => 30
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x64, .f32⟩
  | 4 => ⟨S64, .f32⟩
  | 5 => ⟨S3x64x128, .f32⟩
  | 6 => ⟨S128, .f32⟩
  | 7 => ⟨S3x128x256, .f32⟩
  | 8 => ⟨S256, .f32⟩
  | 9 => ⟨S1x1600000, .i32⟩
  | 10 => ⟨S1600000, .i32⟩
  | 11 => ⟨S1x1600000, .i32⟩
  | 12 => ⟨S1600000, .i32⟩
  | 13 => ⟨S1600000, .i1⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x128, .f32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S1600000x1, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S1600000x128, .f32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S1x64, .f32⟩
  | 88 => ⟨S100000x64, .f32⟩
  | 89 => ⟨S1600000x1, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x64, .f32⟩
  | 99 => ⟨S1600000x64, .f32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S1600000x1, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S1600000x64, .f32⟩
  | 116 => ⟨S1600000x64, .f32⟩
  | 117 => ⟨S_, .f32⟩
  | 118 => ⟨S100000x64, .f32⟩
  | 119 => ⟨S1600000x1, .i32⟩
  | 120 => ⟨S100000x64, .f32⟩
  | 121 => ⟨S_, .f32⟩
  | 122 => ⟨S100000x64, .f32⟩
  | 123 => ⟨S100000x64, .f32⟩
  | 124 => ⟨S100000x64, .f32⟩
  | 125 => ⟨S1x128, .f32⟩
  | 126 => ⟨S100000x128, .f32⟩
  | 127 => ⟨S1600000x1, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S1600000x128, .f32⟩
  | 10 => ⟨S1600000x128, .f32⟩
  | 11 => ⟨S_, .f32⟩
  | 12 => ⟨S100000x128, .f32⟩
  | 13 => ⟨S1600000x1, .i32⟩
  | 14 => ⟨S100000x128, .f32⟩
  | 15 => ⟨S1600000x1, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S1600000x128, .f32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S_, .f32⟩
  | 32 => ⟨S100000x128, .f32⟩
  | 33 => ⟨S100000x128, .f32⟩
  | 34 => ⟨S100000x128, .f32⟩
  | 35 => ⟨S1x256, .f32⟩
  | 36 => ⟨S100000x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S3x128x64, .f32⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S3x64x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S3x128x256, .f32⟩
  | .local _ .vmem, ⟨27, _⟩ => ⟨S1x256, .f32⟩
  | .local _ .vmem, ⟨28, _⟩ => ⟨S4000x256, .f32⟩
  | .local _ .vmem, ⟨29, _⟩ => ⟨S4000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_16 : Ref sig .tc := ⟨.hbm, 106, rfl⟩
abbrev main_v77 : Ref sig .tc := ⟨.hbm, 107, rfl⟩
abbrev main_v78 : Ref sig .tc := ⟨.hbm, 108, rfl⟩
abbrev main_c_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_18 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_19 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_20 : Ref sig .tc := ⟨.hbm, 128, rfl⟩
abbrev main_v95 : Ref sig .tc := ⟨.hbm, 129, rfl⟩
abbrev main_v96 : Ref sig .tc := ⟨.hbm, 130, rfl⟩
abbrev main_c_21 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_22 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_23 : Ref sig .tc := ⟨.hbm, 144, rfl⟩
abbrev main_v108 : Ref sig .tc := ⟨.hbm, 145, rfl⟩
abbrev main_v109 : Ref sig .tc := ⟨.hbm, 146, rfl⟩
abbrev main_c_24 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_25 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_26 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S3x128x64_S3x128x64_0_0_0 : ∀ a, (![0, 0, 0] : Fin 3 → Nat) a + S3x128x64.size a ≤ S3x128x64.size a
  h_S3x128x64 : 0 < S3x128x64.numel
  slices_S3x128x64_o0_0_0_S1x128x64 : S3x128x64.Slices ![0, 0, 0] S1x128x64
  shapeCasts_S1x128x64_S128x64 : S1x128x64.ShapeCasts S128x64
  slices_S3x128x64_o1_0_0_S1x128x64 : S3x128x64.Slices ![1, 0, 0] S1x128x64
  slices_S3x128x64_o2_0_0_S1x128x64 : S3x128x64.Slices ![2, 0, 0] S1x128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S128_S1x128 : S128.ShapeCasts S1x128
  shapeCasts_S4000x64_S4000x64 : S4000x64.ShapeCasts S4000x64
  inb_S3x64x128_S3x64x128_0_0_0 : ∀ a, (![0, 0, 0] : Fin 3 → Nat) a + S3x64x128.size a ≤ S3x64x128.size a
  h_S3x64x128 : 0 < S3x64x128.numel
  slices_S3x64x128_o0_0_0_S1x64x128 : S3x64x128.Slices ![0, 0, 0] S1x64x128
  shapeCasts_S1x64x128_S64x128 : S1x64x128.ShapeCasts S64x128
  slices_S3x64x128_o1_0_0_S1x64x128 : S3x64x128.Slices ![1, 0, 0] S1x64x128
  slices_S3x64x128_o2_0_0_S1x64x128 : S3x64x128.Slices ![2, 0, 0] S1x64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S256_S1x256 : S256.ShapeCasts S1x256
  inb_S3x128x256_S3x128x256_0_0_0 : ∀ a, (![0, 0, 0] : Fin 3 → Nat) a + S3x128x256.size a ≤ S3x128x256.size a
  h_S3x128x256 : 0 < S3x128x256.numel
  slices_S3x128x256_o0_0_0_S1x128x256 : S3x128x256.Slices ![0, 0, 0] S1x128x256
  shapeCasts_S1x128x256_S128x256 : S1x128x256.ShapeCasts S128x256
  slices_S3x128x256_o1_0_0_S1x128x256 : S3x128x256.Slices ![1, 0, 0] S1x128x256
  slices_S3x128x256_o2_0_0_S1x128x256 : S3x128x256.Slices ![2, 0, 0] S1x128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  dot_S4000x128_S128x256_S4000x256_1_0_0_1_n_n_wf : DotDims.WF S4000x128 S128x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x64.size a ≤ S3x128x64.size a
  hwx0_3 : ∀ i : grid0.Coords, EltTy.bits .f32 = 32 ∨ (Rect.block (s := S3x128x64) S3x128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x128.size a ≤ S3x64x128.size a
  hwx1_3 : ∀ i : grid1.Coords, EltTy.bits .f32 = 32 ∨ (Rect.block (s := S3x64x128) S3x64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x128x256.size a ≤ S3x128x256.size a
  hwx2_3 : ∀ i : grid2.Coords, EltTy.bits .f32 = 32 ∨ (Rect.block (s := S3x128x256) S3x128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x256.size a ≤ S100000x256.size a
  hwx2_5 : ∀ i : grid2.Coords, EltTy.bits .f32 = 32 ∨ (Rect.block (s := S100000x256) S4000x256.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v61) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v62) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v62) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v91) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S3x64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v92) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v93) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v93) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v106) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v122) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S3x128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v123) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v124) S4000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x64 : Shape := ⟨3, ![3, 128, 64]⟩
abbrev S64 : Shape := ⟨1, ![64]⟩
abbrev S3x64x128 : Shape := ⟨3, ![3, 64, 128]⟩
abbrev S128 : Shape := ⟨1, ![128]⟩
abbrev S3x128x256 : Shape := ⟨3, ![3, 128, 256]⟩
abbrev S256 : Shape := ⟨1, ![256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x64 : Shape := ⟨3, ![1, 128, 64]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S1x64x128 : Shape := ⟨3, ![1, 64, 128]⟩
abbrev S64x128 : Shape := ⟨2, ![64, 128]⟩
abbrev S1x128 : Shape := ⟨2, ![1, 128]⟩
abbrev S1x128x256 : Shape := ⟨3, ![1, 128, 256]⟩
abbrev S128x256 : Shape := ⟨2, ![128, 256]⟩
abbrev S100000x256 : Shape := ⟨2, ![100000, 256]⟩
abbrev S1x256 : Shape := ⟨2, ![1, 256]⟩

abbrev nBuf : Space → Nat
  | .hbm => 211
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x64, .f32⟩
  | 4 => ⟨S64, .f32⟩
  | 5 => ⟨S3x64x128, .f32⟩
  | 6 => ⟨S128, .f32⟩
  | 7 => ⟨S3x128x256, .f32⟩
  | 8 => ⟨S256, .f32⟩
  | 9 => ⟨S1x1600000, .i32⟩
  | 10 => ⟨S1600000, .i32⟩
  | 11 => ⟨S1x1600000, .i32⟩
  | 12 => ⟨S1600000, .i32⟩
  | 13 => ⟨S1x1600000, .i32⟩
  | 14 => ⟨S1600000, .i32⟩
  | 15 => ⟨S1x1600000, .i32⟩
  | 16 => ⟨S1600000, .i32⟩
  | 17 => ⟨S1600000, .i1⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S1600000, .f32⟩
  | 55 => ⟨S1600000x1, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S1600000x1, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S1600000x128, .f32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S1x128x64, .f32⟩
  | 92 => ⟨S128x64, .f32⟩
  | 93 => ⟨S100000x64, .f32⟩
  | 94 => ⟨S1x128x64, .f32⟩
  | 95 => ⟨S128x64, .f32⟩
  | 96 => ⟨S100000x64, .f32⟩
  | 97 => ⟨S100000x64, .f32⟩
  | 98 => ⟨S1x128x64, .f32⟩
  | 99 => ⟨S128x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S1600000x1, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S1600000x64, .f32⟩
  | 119 => ⟨S1600000x64, .f32⟩
  | 120 => ⟨S_, .f32⟩
  | 121 => ⟨S100000x64, .f32⟩
  | 122 => ⟨S1600000x1, .i32⟩
  | 123 => ⟨S100000x64, .f32⟩
  | 124 => ⟨S1600000x1, .f32⟩
  | 125 => ⟨S_, .i32⟩
  | 126 => ⟨S1600000, .i32⟩
  | 127 => ⟨S1600000, .i1⟩
  | _ => ⟨S100000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S1600000x64, .f32⟩
  | 7 => ⟨S1600000x64, .f32⟩
  | 8 => ⟨S_, .f32⟩
  | 9 => ⟨S100000x64, .f32⟩
  | 10 => ⟨S1600000x1, .i32⟩
  | 11 => ⟨S100000x64, .f32⟩
  | 12 => ⟨S_, .f32⟩
  | 13 => ⟨S100000x64, .f32⟩
  | 14 => ⟨S100000x64, .f32⟩
  | 15 => ⟨S100000x64, .f32⟩
  | 16 => ⟨S1x64x128, .f32⟩
  | 17 => ⟨S64x128, .f32⟩
  | 18 => ⟨S100000x128, .f32⟩
  | 19 => ⟨S1x64x128, .f32⟩
  | 20 => ⟨S64x128, .f32⟩
  | 21 => ⟨S100000x128, .f32⟩
  | 22 => ⟨S100000x128, .f32⟩
  | 23 => ⟨S1x64x128, .f32⟩
  | 24 => ⟨S64x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S1600000x1, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S1600000x128, .f32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S1x128x256, .f32⟩
  | 70 => ⟨S128x256, .f32⟩
  | 71 => ⟨S100000x256, .f32⟩
  | 72 => ⟨S1x128x256, .f32⟩
  | 73 => ⟨S128x256, .f32⟩
  | 74 => ⟨S100000x256, .f32⟩
  | 75 => ⟨S100000x256, .f32⟩
  | 76 => ⟨S1x128x256, .f32⟩
  | 77 => ⟨S128x256, .f32⟩
  | 78 => ⟨S100000x256, .f32⟩
  | 79 => ⟨S100000x256, .f32⟩
  | 80 => ⟨S1x256, .f32⟩
  | 81 => ⟨S100000x256, .f32⟩
  | 82 => ⟨S100000x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_call1_cst : Ref sig .tc := ⟨.hbm, 105, rfl⟩
abbrev main_call1_v0 : Ref sig .tc := ⟨.hbm, 106, rfl⟩
abbrev main_v79 : Ref sig .tc := ⟨.hbm, 107, rfl⟩
abbrev main_v80 : Ref sig .tc := ⟨.hbm, 108, rfl⟩
abbrev main_c_13 : Ref sig .tc := ⟨.hbm, 109, rfl⟩
abbrev main_v81 : Ref sig .tc := ⟨.hbm, 110, rfl⟩
abbrev main_v82 : Ref sig .tc := ⟨.hbm, 111, rfl⟩
abbrev main_c_14 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_15 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_16 : Ref sig .tc := ⟨.hbm, 125, rfl⟩
abbrev main_v94 : Ref sig .tc := ⟨.hbm, 126, rfl⟩
abbrev main_v95 : Ref sig .tc := ⟨.hbm, 127, rfl⟩
abbrev main_c_17 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_18 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_19 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_call2_cst : Ref sig .tc := ⟨.hbm, 158, rfl⟩
abbrev main_call2_v0 : Ref sig .tc := ⟨.hbm, 159, rfl⟩
abbrev main_v123 : Ref sig .tc := ⟨.hbm, 160, rfl⟩
abbrev main_v124 : Ref sig .tc := ⟨.hbm, 161, rfl⟩
abbrev main_c_20 : Ref sig .tc := ⟨.hbm, 162, rfl⟩
abbrev main_v125 : Ref sig .tc := ⟨.hbm, 163, rfl⟩
abbrev main_v126 : Ref sig .tc := ⟨.hbm, 164, rfl⟩
abbrev main_c_21 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_22 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_c_23 : Ref sig .tc := ⟨.hbm, 178, rfl⟩
abbrev main_v138 : Ref sig .tc := ⟨.hbm, 179, rfl⟩
abbrev main_v139 : Ref sig .tc := ⟨.hbm, 180, rfl⟩
abbrev main_c_24 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_25 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_26 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x64_S1x128x64_0_0_0 : S3x128x64.Slices ![0, 0, 0] S1x128x64
  shapeCasts_S1x128x64_S128x64 : S1x128x64.ShapeCasts S128x64
  slices_S3x128x64_S1x128x64_1_0_0 : S3x128x64.Slices ![1, 0, 0] S1x128x64
  slices_S3x128x64_S1x128x64_2_0_0 : S3x128x64.Slices ![2, 0, 0] S1x128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  slices_S3x64x128_S1x64x128_0_0_0 : S3x64x128.Slices ![0, 0, 0] S1x64x128
  shapeCasts_S1x64x128_S64x128 : S1x64x128.ShapeCasts S64x128
  slices_S3x64x128_S1x64x128_1_0_0 : S3x64x128.Slices ![1, 0, 0] S1x64x128
  slices_S3x64x128_S1x64x128_2_0_0 : S3x64x128.Slices ![2, 0, 0] S1x64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x256_S1x128x256_0_0_0 : S3x128x256.Slices ![0, 0, 0] S1x128x256
  shapeCasts_S1x128x256_S128x256 : S1x128x256.ShapeCasts S128x256
  slices_S3x128x256_S1x128x256_1_0_0 : S3x128x256.Slices ![1, 0, 0] S1x128x256
  slices_S3x128x256_S1x128x256_2_0_0 : S3x128x256.Slices ![2, 0, 0] S1x128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x256_S100000x256_1_0_0_1_n_n_wf : DotDims.WF S100000x128 S128x256 S100000x256 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.KRun.lean ====
/-
  The idealized kernel's run, with its result named.

  The program is three kernel launches among stretches of host operations. Its generated frame follows the contents of
  every unscoped buffer of a core through that sequence: `W0` at launch, then after each stretch and after each launch,
  up to `W8` after the third launch, and concludes that the argument arrays end as they began. The same run, read at the
  result buffer instead of only at the arguments, says that the result array ends at `W8` of that buffer.
-/
import proofs.«180513_j10187662426540_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at what the third
    launch's write-backs leave (`W8` at the result buffer) and the argument arrays end as launched. -/
theorem run : θ_run defs (onTc (τ := τ) (main (F := F))) ⟨m, fun _ => 0, ρ⟩ (fun r => ∀ c : Dev nD,
      r.2.mem ((c.tc : Thread nD τ).loc main_v124) = W8 m ρ c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v124 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.RunV

end
-- ==== Proof.HostA.lean ====
/-
  The buffers the first launch finds.

  Before the first launch the host computes, from the edge list alone, the two endpoint arrays, the mask of edges that
  are not self-loops, the degrees and from them (through the one outlined `where`) the inverse square roots, the edge
  weights; then, from the weights and the node features, the first layer's second and third Chebyshev terms; it also
  lays the bias out as a row. These are the same operations, in the same order, as the reference's, so each buffer holds
  the value the reference's one-operation-at-a-time reading (`val_main_v…`) names, as a function of the arguments. The
  operations come in three stretches (before the `where`, the `where`, after it); each stretch is read from the
  contents the stretch before left, with those contents a variable.
-/
import proofs.«180513_j10187662426540_1_alg».proof.Proof.Gen.KernelIdeal.Frame
import proofs.«180513_j10187662426540_1_alg».proof.Proof.ReadP

set_option maxRecDepth 16384

noncomputable section

namespace Cert.Cheb.KV

open Cert.KernelIdeal Cert.KernelIdeal.Gen Idealize.ShloMosaic Idealize.ShloMosaic.TcCoe Idealize.ShloMosaic.ValueIdx
open Idealize.SL.Sem Cert.Cheb
open Cert.ReferenceIdeal.ReadP

variable (m : (ℓ : Loc nD τ sig) → Buf (Elt Ideal) ℓ) (ρ : Dev nD → PrngReg) (c : Dev nD)

/-- The arguments, as the arrays they are. -/
abbrev X0 : S100000x128.Idx → EReal := m ((c.tc : Thread nD τ).loc main_arg0)
abbrev X1 : S2x1600000.Idx → BitVec 32 := m ((c.tc : Thread nD τ).loc main_arg1)
abbrev X3 : S3x128x64.Idx → EReal := m ((c.tc : Thread nD τ).loc main_arg3)
abbrev X4 : S64.Idx → EReal := m ((c.tc : Thread nD τ).loc main_arg4)
abbrev X5 : S3x64x128.Idx → EReal := m ((c.tc : Thread nD τ).loc main_arg5)
abbrev X6 : S128.Idx → EReal := m ((c.tc : Thread nD τ).loc main_arg6)
abbrev X7 : S3x128x256.Idx → EReal := m ((c.tc : Thread nD τ).loc main_arg7)
abbrev X8 : S256.Idx → EReal := m ((c.tc : Thread nD τ).loc main_arg8)

/-! ## Before the `where` -/

theorem w1_v1 : W1 m ρ c (Proc.devRef .tc main_v1) = val_main_v1 (F := Ideal) (X1 m c) := by
  show StableHlo.after hostOps0 (W0 m ρ c) (Proc.devRef .tc main_v1) = _
  after_results_simp <;> rfl

theorem w1_v3 : W1 m ρ c (Proc.devRef .tc main_v3) = val_main_v3 (F := Ideal) (X1 m c) := by
  show StableHlo.after hostOps0 (W0 m ρ c) (Proc.devRef .tc main_v3) = _
  after_results_simp <;> rfl

theorem w1_v5 : W1 m ρ c (Proc.devRef .tc main_v5) = val_main_v9 (F := Ideal) (X1 m c) := by
  show StableHlo.after hostOps0 (W0 m ρ c) (Proc.devRef .tc main_v5) = _
  after_results_simp <;> rfl

theorem w1_arg0 : W1 m ρ c (Proc.devRef .tc main_arg0) = X0 m c := by
  show StableHlo.after hostOps0 (W0 m ρ c) (Proc.devRef .tc main_arg0) = _
  after_results_simp <;> rfl

theorem w1_arg3 : W1 m ρ c (Proc.devRef .tc main_arg3) = X3 m c := by
  show StableHlo.after hostOps0 (W0 m ρ c) (Proc.devRef .tc main_arg3) = _
  after_results_simp <;> rfl

theorem w1_arg4 : W1 m ρ c (Proc.devRef .tc main_arg4) = X4 m c := by
  show StableHlo.after hostOps0 (W0 m ρ c) (Proc.devRef .tc main_arg4) = _
  after_results_simp <;> rfl

theorem w1_arg5 : W1 m ρ c (Proc.devRef .tc main_arg5) = X5 m c := by
  show StableHlo.after hostOps0 (W0 m ρ c) (Proc.devRef .tc main_arg5) = _
  after_results_simp <;> rfl

theorem w1_arg6 : W1 m ρ c (Proc.devRef .tc main_arg6) = X6 m c := by
  show StableHlo.after hostOps0 (W0 m ρ c) (Proc.devRef .tc main_arg6) = _
  after_results_simp <;> rfl

theorem w1_arg7 : W1 m ρ c (Proc.devRef .tc main_arg7) = X7 m c := by
  show StableHlo.after hostOps0 (W0 m ρ c) (Proc.devRef .tc main_arg7) = _
  after_results_simp <;> rfl

theorem w1_arg8 : W1 m ρ c (Proc.devRef .tc main_arg8) = X8 m c := by
  show StableHlo.after hostOps0 (W0 m ρ c) (Proc.devRef .tc main_arg8) = _
  after_results_simp <;> rfl

theorem w1_v10 : W1 m ρ c (Proc.devRef .tc main_v10) = val_main_v14 (F := Ideal) (X1 m c) := by
  show StableHlo.after hostOps0 (W0 m ρ c) (Proc.devRef .tc main_v10) = _
  after_results_simp <;> rfl

theorem w1_v13 : W1 m ρ c (Proc.devRef .tc main_v13) = val_main_v17 (F := Ideal) (X1 m c) := by
  show StableHlo.after hostOps0 (W0 m ρ c) (Proc.devRef .tc main_v13) = _
  after_results_simp <;> rfl

theorem w1_cst_2 : W1 m ρ c (Proc.devRef .tc main_cst_2) = val_main_cst_2 (F := Ideal) := by
  show StableHlo.after hostOps0 (W0 m ρ c) (Proc.devRef .tc main_cst_2) = _
  after_results_simp <;> rfl

/-! ## The `where`: three operations over typed references, read from any contents -/

theorem where_v14 (V : Valuation τ sig (Elt Ideal)) :
    StableHlo.after hostOps0_1 V (Proc.devRef .tc main_v14)
      = select (V (Proc.devRef .tc main_v10)) (V (Proc.devRef .tc main_v13))
          (broadcastInDim S100000 ![] bcast_S_S100000 (id (V (Proc.devRef .tc main_cst_2)))) := by
  simp only [StableHlo.after_cons, StableHlo.after_nil]; rfl

theorem where_keep_main_v1 (V : Valuation τ sig (Elt Ideal)) :
    StableHlo.after hostOps0_1 V (Proc.devRef .tc main_v1) = V (Proc.devRef .tc main_v1) := by
  simp only [StableHlo.after_cons, StableHlo.after_nil]; rfl

theorem where_keep_main_v3 (V : Valuation τ sig (Elt Ideal)) :
    StableHlo.after hostOps0_1 V (Proc.devRef .tc main_v3) = V (Proc.devRef .tc main_v3) := by
  simp only [StableHlo.after_cons, StableHlo.after_nil]; rfl

theorem where_keep_main_v5 (V : Valuation τ sig (Elt Ideal)) :
    StableHlo.after hostOps0_1 V (Proc.devRef .tc main_v5) = V (Proc.devRef .tc main_v5) := by
  simp only [StableHlo.after_cons, StableHlo.after_nil]; rfl

theorem where_keep_main_arg0 (V : Valuation τ sig (Elt Ideal)) :
    StableHlo.after hostOps0_1 V (Proc.devRef .tc main_arg0) = V (Proc.devRef .tc main_arg0) := by
  simp only [StableHlo.after_cons, StableHlo.after_nil]; rfl

theorem where_keep_main_arg3 (V : Valuation τ sig (Elt Ideal)) :
    StableHlo.after hostOps0_1 V (Proc.devRef .tc main_arg3) = V (Proc.devRef .tc main_arg3) := by
  simp only [StableHlo.after_cons, StableHlo.after_nil]; rfl

theorem where_keep_main_arg4 (V : Valuation τ sig (Elt Ideal)) :
    StableHlo.after hostOps0_1 V (Proc.devRef .tc main_arg4) = V (Proc.devRef .tc main_arg4) := by
  simp only [StableHlo.after_cons, StableHlo.after_nil]; rfl

theorem where_keep_main_arg5 (V : Valuation τ sig (Elt Ideal)) :
    StableHlo.after hostOps0_1 V (Proc.devRef .tc main_arg5) = V (Proc.devRef .tc main_arg5) := by
  simp only [StableHlo.after_cons, StableHlo.after_nil]; rfl

theorem where_keep_main_arg6 (V : Valuation τ sig (Elt Ideal)) :
    StableHlo.after hostOps0_1 V (Proc.devRef .tc main_arg6) = V (Proc.devRef .tc main_arg6) := by
  simp only [StableHlo.after_cons, StableHlo.after_nil]; rfl

theorem where_keep_main_arg7 (V : Valuation τ sig (Elt Ideal)) :
    StableHlo.after hostOps0_1 V (Proc.devRef .tc main_arg7) = V (Proc.devRef .tc main_arg7) := by
  simp only [StableHlo.after_cons, StableHlo.after_nil]; rfl

theorem where_keep_main_arg8 (V : Valuation τ sig (Elt Ideal)) :
    StableHlo.after hostOps0_1 V (Proc.devRef .tc main_arg8) = V (Proc.devRef .tc main_arg8) := by
  simp only [StableHlo.after_cons, StableHlo.after_nil]; rfl

theorem w2_v14 : W2 m ρ c (Proc.devRef .tc main_v14) = val_main_v18 (F := Ideal) (X1 m c) := by
  refine (where_v14 (W1 m ρ c)).trans ?_
  rw [w1_v10, w1_v13, w1_cst_2]
  rfl

theorem w2_v1 : W2 m ρ c (Proc.devRef .tc main_v1) = val_main_v1 (F := Ideal) (X1 m c) :=
  (where_keep_main_v1 (W1 m ρ c)).trans (w1_v1 m ρ c)

theorem w2_v3 : W2 m ρ c (Proc.devRef .tc main_v3) = val_main_v3 (F := Ideal) (X1 m c) :=
  (where_keep_main_v3 (W1 m ρ c)).trans (w1_v3 m ρ c)

theorem w2_v5 : W2 m ρ c (Proc.devRef .tc main_v5) = val_main_v9 (F := Ideal) (X1 m c) :=
  (where_keep_main_v5 (W1 m ρ c)).trans (w1_v5 m ρ c)

theorem w2_arg0 : W2 m ρ c (Proc.devRef .tc main_arg0) = X0 m c :=
  (where_keep_main_arg0 (W1 m ρ c)).trans (w1_arg0 m ρ c)

theorem w2_arg3 : W2 m ρ c (Proc.devRef .tc main_arg3) = X3 m c :=
  (where_keep_main_arg3 (W1 m ρ c)).trans (w1_arg3 m ρ c)

theorem w2_arg4 : W2 m ρ c (Proc.devRef .tc main_arg4) = X4 m c :=
  (where_keep_main_arg4 (W1 m ρ c)).trans (w1_arg4 m ρ c)

theorem w2_arg5 : W2 m ρ c (Proc.devRef .tc main_arg5) = X5 m c :=
  (where_keep_main_arg5 (W1 m ρ c)).trans (w1_arg5 m ρ c)

theorem w2_arg6 : W2 m ρ c (Proc.devRef .tc main_arg6) = X6 m c :=
  (where_keep_main_arg6 (W1 m ρ c)).trans (w1_arg6 m ρ c)

theorem w2_arg7 : W2 m ρ c (Proc.devRef .tc main_arg7) = X7 m c :=
  (where_keep_main_arg7 (W1 m ρ c)).trans (w1_arg7 m ρ c)

theorem w2_arg8 : W2 m ρ c (Proc.devRef .tc main_arg8) = X8 m c :=
  (where_keep_main_arg8 (W1 m ρ c)).trans (w1_arg8 m ρ c)

/-! ## At the first launch's entry -/

attribute [local irreducible] Host.gather Host.scatterAdd Host.rsqrt Ideal.matmul in
set_option maxHeartbeats 1000000 in
theorem a_v1 : V3 m ρ c main_v1 = val_main_v1 (F := Ideal) (X1 m c) := by
  have h_v1 := w2_v1 m ρ c
  show StableHlo.after hostOps0_2 (W2 m ρ c) (Proc.devRef .tc main_v1) = _
  generalize W2 m ρ c = U at *
  after_results_simp
  exact h_v1
attribute [local irreducible] Host.gather Host.scatterAdd Host.rsqrt Ideal.matmul in
set_option maxHeartbeats 1000000 in
theorem a_v3 : V3 m ρ c main_v3 = val_main_v3 (F := Ideal) (X1 m c) := by
  have h_v3 := w2_v3 m ρ c
  show StableHlo.after hostOps0_2 (W2 m ρ c) (Proc.devRef .tc main_v3) = _
  generalize W2 m ρ c = U at *
  after_results_simp
  exact h_v3
attribute [local irreducible] Host.gather Host.scatterAdd Host.rsqrt Ideal.matmul in
set_option maxHeartbeats 1000000 in
theorem a_v31 : V3 m ρ c main_v31 = val_main_v35 (F := Ideal) (X1 m c) := by
  have h_v14 := w2_v14 m ρ c
  have h_v1 := w2_v1 m ρ c
  have h_v3 := w2_v3 m ρ c
  have h_v5 := w2_v5 m ρ c
  show StableHlo.after hostOps0_2 (W2 m ρ c) (Proc.devRef .tc main_v31) = _
  generalize W2 m ρ c = U at *
  after_results_simp
  rw [h_v14, h_v1, h_v3, h_v5]
  rfl
attribute [local irreducible] Host.gather Host.scatterAdd Host.rsqrt Ideal.matmul in
set_option maxHeartbeats 1000000 in
theorem a_v44 : V3 m ρ c main_v44 = val_main_v48 (F := Ideal) (X0 m c) (X1 m c) := by
  have h_v14 := w2_v14 m ρ c
  have h_v1 := w2_v1 m ρ c
  have h_v3 := w2_v3 m ρ c
  have h_v5 := w2_v5 m ρ c
  have h_arg0 := w2_arg0 m ρ c
  show StableHlo.after hostOps0_2 (W2 m ρ c) (Proc.devRef .tc main_v44) = _
  generalize W2 m ρ c = U at *
  after_results_simp
  rw [h_v14, h_v1, h_v3, h_v5, h_arg0]
  rfl
attribute [local irreducible] Host.gather Host.scatterAdd Host.rsqrt Ideal.matmul in
set_option maxHeartbeats 1000000 in
theorem a_v60 : V3 m ρ c main_v60 = val_main_v64 (F := Ideal) (X0 m c) (X1 m c) := by
  have h_v14 := w2_v14 m ρ c
  have h_v1 := w2_v1 m ρ c
  have h_v3 := w2_v3 m ρ c
  have h_v5 := w2_v5 m ρ c
  have h_arg0 := w2_arg0 m ρ c
  show StableHlo.after hostOps0_2 (W2 m ρ c) (Proc.devRef .tc main_v60) = _
  generalize W2 m ρ c = U at *
  after_results_simp
  rw [h_v14, h_v1, h_v3, h_v5, h_arg0]
  rfl
attribute [local irreducible] Host.gather Host.scatterAdd Host.rsqrt Ideal.matmul in
set_option maxHeartbeats 1000000 in
theorem a_v61 : V3 m ρ c main_v61 = shapeCast S1x64 (X4 m c) shapeCasts_S64_S1x64 := by
  have h_arg4 := w2_arg4 m ρ c
  show StableHlo.after hostOps0_2 (W2 m ρ c) (Proc.devRef .tc main_v61) = _
  generalize W2 m ρ c = U at *
  after_results_simp
  rw [h_arg4]
  rfl
attribute [local irreducible] Host.gather Host.scatterAdd Host.rsqrt Ideal.matmul in
set_option maxHeartbeats 1000000 in
theorem a_arg0 : V3 m ρ c main_arg0 = X0 m c := by
  have h_arg0 := w2_arg0 m ρ c
  show StableHlo.after hostOps0_2 (W2 m ρ c) (Proc.devRef .tc main_arg0) = _
  generalize W2 m ρ c = U at *
  after_results_simp
  exact h_arg0

attribute [local irreducible] Host.gather Host.scatterAdd Host.rsqrt Ideal.matmul in
set_option maxHeartbeats 1000000 in
theorem a_arg3 : V3 m ρ c main_arg3 = X3 m c := by
  have h_arg3 := w2_arg3 m ρ c
  show StableHlo.after hostOps0_2 (W2 m ρ c) (Proc.devRef .tc main_arg3) = _
  generalize W2 m ρ c = U at *
  after_results_simp
  exact h_arg3

attribute [local irreducible] Host.gather Host.scatterAdd Host.rsqrt Ideal.matmul in
set_option maxHeartbeats 1000000 in
theorem a_arg5 : V3 m ρ c main_arg5 = X5 m c := by
  have h_arg5 := w2_arg5 m ρ c
  show StableHlo.after hostOps0_2 (W2 m ρ c) (Proc.devRef .tc main_arg5) = _
  generalize W2 m ρ c = U at *
  after_results_simp
  exact h_arg5

attribute [local irreducible] Host.gather Host.scatterAdd Host.rsqrt Ideal.matmul in
set_option maxHeartbeats 1000000 in
theorem a_arg6 : V3 m ρ c main_arg6 = X6 m c := by
  have h_arg6 := w2_arg6 m ρ c
  show StableHlo.after hostOps0_2 (W2 m ρ c) (Proc.devRef .tc main_arg6) = _
  generalize W2 m ρ c = U at *
  after_results_simp
  exact h_arg6

attribute [local irreducible] Host.gather Host.scatterAdd Host.rsqrt Ideal.matmul in
set_option maxHeartbeats 1000000 in
theorem a_arg7 : V3 m ρ c main_arg7 = X7 m c := by
  have h_arg7 := w2_arg7 m ρ c
  show StableHlo.after hostOps0_2 (W2 m ρ c) (Proc.devRef .tc main_arg7) = _
  generalize W2 m ρ c = U at *
  after_results_simp
  exact h_arg7

attribute [local irreducible] Host.gather Host.scatterAdd Host.rsqrt Ideal.matmul in
set_option maxHeartbeats 1000000 in
theorem a_arg8 : V3 m ρ c main_arg8 = X8 m c := by
  have h_arg8 := w2_arg8 m ρ c
  show StableHlo.after hostOps0_2 (W2 m ρ c) (Proc.devRef .tc main_arg8) = _
  generalize W2 m ρ c = U at *
  after_results_simp
  exact h_arg8

end Cert.Cheb.KV

end
-- ==== Proof.Spec.lean ====
/-
  A Chebyshev graph-convolution layer with three terms, read at one entry.

  For node features `T0, T1, T2` (arrays of `n` rows and `cin` columns: the layer's input, its image under the
  graph operator, and the second Chebyshev term), three weight matrices `w0, w1, w2` (`cin × cout`) and a bias
  `b`, the layer's pre-activation at row `R`, column `j` is
      ((T0·w0 + T1·w1) + T2·w2)[R, j] + b[j],
  each product a sum over the `cin` input columns. Over the extended reals a sum of finitely many terms does not
  depend on an order of summation, so a row of this array depends on the same row of `T0, T1, T2` only: the rows may
  be computed in blocks of any height. That is all the two programs differ by.
-/
import Idealize.ShloMosaic.PureOps.Ideal
import Idealize.ShloMosaic.PureOps.Ideal.Laws
import Idealize.ShloMosaic.Lib.ValueIdx

noncomputable section

namespace Cert.Cheb

open Idealize.ShloMosaic Idealize.ShloMosaic.ValueIdx

/-- Entry `(R, j)` of the product of an `n × cin` array with a `cin × cout` matrix. -/
def mm {n cin cout : ℕ} (T : (⟨2, ![n, cin]⟩ : Shape).Idx → EReal) (w : (⟨2, ![cin, cout]⟩ : Shape).Idx → EReal)
    (R : Fin n) (j : Fin cout) : EReal :=
  ∑ k : Fin cin, T (ix2 R k) * w (ix2 k j)

/-- The layer before its activation: `((T0·w0 + T1·w1) + T2·w2) + b`, the sums in the order both programs add them. -/
def comb {n cin cout : ℕ} (T0 T1 T2 : (⟨2, ![n, cin]⟩ : Shape).Idx → EReal)
    (w0 w1 w2 : (⟨2, ![cin, cout]⟩ : Shape).Idx → EReal) (b : Fin cout → EReal) (R : Fin n) (j : Fin cout) : EReal :=
  ((mm T0 w0 R j + mm T1 w1 R j) + mm T2 w2 R j) + b j

/-- The layer's entry depends on one row of each feature array: if row `r` of three blocks `x0, x1, x2` is row `R` of the
    arrays `X0, X1, X2`, the blocks' pre-activation at `(r, j)` is the arrays' at `(R, j)`. -/
theorem comb_rows {n n' cin cout : ℕ} (X0 X1 X2 : (⟨2, ![n, cin]⟩ : Shape).Idx → EReal)
    (x0 x1 x2 : (⟨2, ![n', cin]⟩ : Shape).Idx → EReal) (w0 w1 w2 : (⟨2, ![cin, cout]⟩ : Shape).Idx → EReal)
    (b : Fin cout → EReal) (r : Fin n') (R : Fin n) (j : Fin cout)
    (h0 : ∀ k : Fin cin, x0 (ix2 r k) = X0 (ix2 R k)) (h1 : ∀ k : Fin cin, x1 (ix2 r k) = X1 (ix2 R k))
    (h2 : ∀ k : Fin cin, x2 (ix2 r k) = X2 (ix2 R k)) :
    comb x0 x1 x2 w0 w1 w2 b r j = comb X0 X1 X2 w0 w1 w2 b R j := by
  unfold comb mm
  simp only [h0, h1, h2]

/-- A function of a row and a column as an array of two axes. -/
def atIdx {n m : ℕ} (f : Fin n → Fin m → EReal) : (⟨2, ![n, m]⟩ : Shape).Idx → EReal := fun i => f (i 0) (i 1)

theorem atIdx_ix2 {n m : ℕ} (f : Fin n → Fin m → EReal) (R : Fin n) (j : Fin m) : atIdx f (ix2 R j) = f R j := rfl

/-- A sum over a dot's one-axis contraction index is the sum over that axis's coordinates. -/
theorem sum_contr1 {sl sr so : Shape} (D : DotDims sl sr so) (n : ℕ) (hr : D.contr.rank = 1)
    (hs : D.contr.size ⟨0, by omega⟩ = n) (f : D.contr.Idx → EReal) :
    ∑ q : D.contr.Idx, f q = ∑ k : Fin n, f ((contrEquiv1 D n hr hs).symm k) :=
  (Equiv.sum_comp (contrEquiv1 D n hr hs).symm f).symm

end Cert.Cheb

end
-- ==== Proof.Body0.lean ====
/-
  What one grid point of the first layer's kernel stores, read at an entry.

  The body loads a block of 4000 rows of each of the three feature arrays, the whole weight stack `W` (three
  `128 × 64` matrices) and the bias row, and stores
      max(((x0·W[0] + x1·W[1]) + x2·W[2]) + bias, 0).
  Each matrix-unit product starts from a zero accumulator, so at the extended reals its entry `(r, j)` is the plain
  sum over the 128 input columns; a change of float format is the identity there. Hence entry `(r, j)` of the stored
  block is the layer's pre-activation of the block's rows, at `(r, j)`, against zero.
-/
import proofs.«180513_j10187662426540_1_alg».proof.Proof.Gen.KernelIdeal.Skeleton
import proofs.«180513_j10187662426540_1_alg».proof.Proof.Spec
import Idealize.ShloMosaic.Lib.Pipeline.Value
import Idealize.ShloMosaic.Lib.ValueLayout

noncomputable section

namespace Cert.Cheb.K0

open Cert.KernelIdeal Cert.KernelIdeal.Gen Idealize.ShloMosaic Idealize.ShloMosaic.ValueIdx Cert.Cheb

/-- The kernel's matrix product: a block of 4000 rows against one `128 × 64` weight matrix. -/
abbrev D := dot_S4000x128_S128x64_S4000x64_1_0_0_1_n_n

/-- The three weight matrices, cut out of the stack as the body cuts them. -/
def w0 (W : S3x128x64.Idx → EReal) : S128x64.Idx → EReal :=
  shapeCast S128x64 (extractStridedSlice S1x128x64 ![0, 0, 0] W slices_S3x128x64_o0_0_0_S1x128x64) shapeCasts_S1x128x64_S128x64
def w1 (W : S3x128x64.Idx → EReal) : S128x64.Idx → EReal :=
  shapeCast S128x64 (extractStridedSlice S1x128x64 ![1, 0, 0] W slices_S3x128x64_o1_0_0_S1x128x64) shapeCasts_S1x128x64_S128x64
def w2 (W : S3x128x64.Idx → EReal) : S128x64.Idx → EReal :=
  shapeCast S128x64 (extractStridedSlice S1x128x64 ![2, 0, 0] W slices_S3x128x64_o2_0_0_S1x128x64) shapeCasts_S1x128x64_S128x64

theorem lhs0 (i : S4000x64.Idx) (q : D.contr.Idx) : (D.lhsIdx i q 0).val = (i 0).val := by
  unfold DotDims.lhsIdx
  rw [dif_neg (show ¬(0 : Fin S4000x128.rank) ∈ D.lhsBatch by decide), dif_pos (show (0 : Fin S4000x128.rank) ∈ D.lhsNonContracting by decide)]
  rfl
theorem lhs1 (i : S4000x64.Idx) (q : D.contr.Idx) : (D.lhsIdx i q 1).val = (q ⟨0, by decide⟩).val :=
  D.lhsIdx_val_of_single rfl i q
theorem rhs0 (i : S4000x64.Idx) (q : D.contr.Idx) : (D.rhsIdx i q 0).val = (q ⟨0, by decide⟩).val :=
  D.rhsIdx_val_of_single rfl i q
theorem rhs1 (i : S4000x64.Idx) (q : D.contr.Idx) : (D.rhsIdx i q 1).val = (i 1).val := by
  unfold DotDims.rhsIdx
  rw [dif_neg (show ¬(1 : Fin S128x64.rank) ∈ D.rhsBatch by decide), dif_pos (show (1 : Fin S128x64.rank) ∈ D.rhsNonContracting by decide)]
  rfl

/-- A matrix-unit product into a zero accumulator, at entry `(r, j)`: the sum over the 128 contracted columns. -/
theorem matmul_zero_apply (lhs : S4000x128.Idx → EReal) (rhs : S128x64.Idx → EReal) (r : Fin 4000) (j : Fin 64) :
    FloatOps.matmul (F := Ideal) (φ₁ := .bf16) (φ₂ := .bf16) D none lhs rhs (constant S4000x64 .f32 0x00000000#32) (ix2 r j) = mm lhs rhs r j := by
  refine (Ideal.matmul_constant_zero_apply (φ₁ := .bf16) (φ₂ := .bf16) D none lhs rhs (ix2 r j)).trans ?_
  rw [sum_contr1 D 128 rfl rfl]
  unfold mm
  refine Finset.sum_congr rfl fun k _ => ?_
  have hk := contrEquiv1_symm_val D 128 rfl rfl k
  have el : D.lhsIdx (ix2 r j) ((contrEquiv1 D 128 rfl rfl).symm k) = ix2 r k := funext fun a => Fin.ext (by
    match a with
    | ⟨0, _⟩ => exact lhs0 _ _
    | ⟨1, _⟩ => exact (lhs1 _ _).trans hk)
  have er : D.rhsIdx (ix2 r j) ((contrEquiv1 D 128 rfl rfl).symm k) = ix2 k j := funext fun a => Fin.ext (by
    match a with
    | ⟨0, _⟩ => exact (rhs0 _ _).trans hk
    | ⟨1, _⟩ => exact rhs1 _ _)
  rw [el, er]

/-- Entry `(r, j)` of the block the body stores. -/
theorem pay_apply (x0 x1 x2 : Vec Ideal S4000x128 .f32) (x3 : Vec Ideal S3x128x64 .f32) (x4 : Vec Ideal S1x64 .f32)
    (r : Fin 4000) (j : Fin 64) :
    k0_pay1 x0 x1 x2 x3 x4 (ix2 r j)
      = max (comb x0 x1 x2 (w0 x3) (w1 x3) (w2 x3) (fun j => x4 (ix2 (0 : Fin 1) j)) r j) 0 := by
  unfold k0_pay1
  simp only [shapeCast_self]
  show max (((FloatOps.matmul (F := Ideal) (φ₁ := .bf16) (φ₂ := .bf16) D none x0 (w0 x3) (constant S4000x64 .f32 0x00000000#32) (ix2 r j)
        + FloatOps.matmul (F := Ideal) (φ₁ := .bf16) (φ₂ := .bf16) D none x1 (w1 x3) (constant S4000x64 .f32 0x00000000#32) (ix2 r j))
        + FloatOps.matmul (F := Ideal) (φ₁ := .bf16) (φ₂ := .bf16) D none x2 (w2 x3) (constant S4000x64 .f32 0x00000000#32) (ix2 r j))
        + broadcastTo S4000x64 x4 broadcasts_S1x64_S4000x64 (ix2 r j)) (Ideal.ofBits .f32 0x00000000#32) = _
  rw [matmul_zero_apply, matmul_zero_apply, matmul_zero_apply, broadcastTo_1b_ab_apply, Ideal.ofBits_zero_f32]
  rfl

end Cert.Cheb.K0

end
-- ==== Proof.Region0.lean ====
/-
  The first layer's launch, as one array.

  The grid has 25 points; point `t` reads rows `4000·t … 4000·t + 3999` of the three feature arrays (their block index
  is `t` on the row axis and `0` on the column axis), the whole weight stack and the bias row (block index `0`), and
  writes rows `4000·t … 4000·t + 3999` of the result. What it writes at row `r` of its block is the layer's value
  at row `4000·t + r` of the arrays, because that value depends on that row alone; and the 25 row blocks tile the
  100000 rows. So after the launch the result array is the layer of the arrays the launch found.
-/
import proofs.«180513_j10187662426540_1_alg».proof.Proof.Gen.KernelIdeal.Frame
import proofs.«180513_j10187662426540_1_alg».proof.Proof.Body0
import Idealize.ShloMosaic.Lib.Pipeline.Value

set_option maxRecDepth 16384

noncomputable section

namespace Cert.Cheb.K0

open Cert.KernelIdeal Cert.KernelIdeal.Gen Idealize.ShloMosaic Idealize.ShloMosaic.TcCoe Idealize.ShloMosaic.ValueIdx
open Idealize.SL.Sem Cert.Cheb
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices of the six windows at a grid point, decided over the grid. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the arrays the launch finds: entry `(R, j)` is `max(((A·W[0] + T1·W[1]) + T2·W[2])[R, j] + b[j], 0)`. -/
def G (c : Dev nD) : S100000x64.Idx → EReal :=
  atIdx fun R j => max (comb (V c main_arg0 : S100000x128.Idx → EReal) (V c main_v44 : S100000x128.Idx → EReal)
    (V c main_v60 : S100000x128.Idx → EReal) (w0 (V c main_arg3)) (w1 (V c main_arg3)) (w2 (V c main_arg3))
    (fun j => (V c main_v61 : S1x64.Idx → EReal) (ix2 (0 : Fin 1) j)) R j) 0

/-- What point `t` writes back is block `t` of that array. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S4000x128) hz2, View.ld_unit_zero (S := S3x128x64) hz3, View.ld_unit_zero (S := S1x64) hz2]
  obtain ⟨e00, e01, e10, e11, e20, e21, e30, e31, e32, e40, e41, e50, e51⟩ := idx_facts t
  have ht : t.val < 25 := by have h := t.isLt; have hN : cfg0.N = 25 := N_0; omega
  funext y
  obtain ⟨r, j, rfl⟩ : ∃ (r : Fin 4000) (j : Fin 64), y = ix2 r j := ⟨y 0, y 1, eq_ix2 y⟩
  have hr : r.val < 4000 := r.isLt
  show k0_pay1 (iblk0 V c 0 t) (iblk0 V c 1 t) (iblk0 V c 2 t) (iblk0 V c 3 t) (iblk0 V c 4 t) (ix2 r j)
    = G V c (((cfg0.win 5).blk t).view.emb (ix2 r j))
  refine (pay_apply (iblk0 V c 0 t) (iblk0 V c 1 t) (iblk0 V c 2 t) (iblk0 V c 3 t) (iblk0 V c 4 t) r j).trans ?_
  have hemb : ((cfg0.win 5).blk t).view.emb (ix2 r j) = ix2 (⟨4000 * t.val + r.val, by omega⟩ : Fin 100000) j :=
    funext fun a => Fin.ext (by
      match a with
      | ⟨0, _⟩ => show win0_5.index t (0 : Fin 2) * 4000 + 1 * r.val = 4000 * t.val + r.val; rw [e50]; omega
      | ⟨1, _⟩ => show win0_5.index t (1 : Fin 2) * 64 + 1 * j.val = j.val; rw [e51]; omega)
  rw [hemb]
  unfold G
  rw [atIdx_ix2]
  have h3 : (iblk0 V c 3 t : S3x128x64.Idx → EReal) = V c main_arg3 := funext fun y => by
    show V c main_arg3 (((cfg0.win 3).blk t).view.emb y) = V c main_arg3 y
    refine congrArg _ (funext fun a => Fin.ext ?_)
    match a with
    | ⟨0, _⟩ => show win0_3.index t (0 : Fin 3) * 3 + 1 * (y 0).val = (y 0).val; rw [e30]; omega
    | ⟨1, _⟩ => show win0_3.index t (1 : Fin 3) * 128 + 1 * (y 1).val = (y 1).val; rw [e31]; omega
    | ⟨2, _⟩ => show win0_3.index t (2 : Fin 3) * 64 + 1 * (y 2).val = (y 2).val; rw [e32]; omega
  have h4 : (iblk0 V c 4 t : S1x64.Idx → EReal) = V c main_v61 := funext fun y => by
    show V c main_v61 (((cfg0.win 4).blk t).view.emb y) = V c main_v61 y
    refine congrArg _ (funext fun a => Fin.ext ?_)
    match a with
    | ⟨0, _⟩ => show win0_4.index t (0 : Fin 2) * 1 + 1 * (y 0).val = (y 0).val; rw [e40]; omega
    | ⟨1, _⟩ => show win0_4.index t (1 : Fin 2) * 64 + 1 * (y 1).val = (y 1).val; rw [e41]; omega
  have h0 : ∀ k : Fin 128, (iblk0 V c 0 t : S4000x128.Idx → EReal) (ix2 r k)
      = (V c main_arg0 : S100000x128.Idx → EReal) (ix2 (⟨4000 * t.val + r.val, by omega⟩ : Fin 100000) k) := fun k => by
    show V c main_arg0 (((cfg0.win 0).blk t).view.emb (ix2 r k)) = _
    refine congrArg _ (funext fun a => Fin.ext ?_)
    match a with
    | ⟨0, _⟩ => show win0_0.index t (0 : Fin 2) * 4000 + 1 * r.val = 4000 * t.val + r.val; rw [e00]; omega
    | ⟨1, _⟩ => show win0_0.index t (1 : Fin 2) * 128 + 1 * k.val = k.val; rw [e01]; omega
  have h1 : ∀ k : Fin 128, (iblk0 V c 1 t : S4000x128.Idx → EReal) (ix2 r k)
      = (V c main_v44 : S100000x128.Idx → EReal) (ix2 (⟨4000 * t.val + r.val, by omega⟩ : Fin 100000) k) := fun k => by
    show V c main_v44 (((cfg0.win 1).blk t).view.emb (ix2 r k)) = _
    refine congrArg _ (funext fun a => Fin.ext ?_)
    match a with
    | ⟨0, _⟩ => show win0_1.index t (0 : Fin 2) * 4000 + 1 * r.val = 4000 * t.val + r.val; rw [e10]; omega
    | ⟨1, _⟩ => show win0_1.index t (1 : Fin 2) * 128 + 1 * k.val = k.val; rw [e11]; omega
  have h2 : ∀ k : Fin 128, (iblk0 V c 2 t : S4000x128.Idx → EReal) (ix2 r k)
      = (V c main_v60 : S100000x128.Idx → EReal) (ix2 (⟨4000 * t.val + r.val, by omega⟩ : Fin 100000) k) := fun k => by
    show V c main_v60 (((cfg0.win 2).blk t).view.emb (ix2 r k)) = _
    refine congrArg _ (funext fun a => Fin.ext ?_)
    match a with
    | ⟨0, _⟩ => show win0_2.index t (0 : Fin 2) * 4000 + 1 * r.val = 4000 * t.val + r.val; rw [e20]; omega
    | ⟨1, _⟩ => show win0_2.index t (1 : Fin 2) * 128 + 1 * k.val = k.val; rw [e21]; omega
  rw [h3, h4]
  exact congrArg (max · 0) (comb_rows _ _ _ _ _ _ _ _ _ _ _ _ _ h0 h1 h2)

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v62).slice (win0_5.rect t)).set ↔ _
  rw [View.set_slice_whole, Rect.mem_set_unit]
  exact Iff.rfl

/-- Every row is in some point's block: row `R` in point `R / 4000`'s. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 4000 :=
    ⟨⟨(i 0).val / 4000, by have hN : cfg0.N = 25 := N_0; omega⟩, rfl⟩
  obtain ⟨e00, e01, e10, e11, e20, e21, e30, e31, e32, e40, e41, e50, e51⟩ := idx_facts t
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; rw [e50, ht]; omega
  | ⟨1, _⟩ => show win0_5.index t (1 : Fin 2) * 64 ≤ (i 1).val ∧ (i 1).val < win0_5.index t (1 : Fin 2) * 64 + 64; rw [e51]; omega

/-- After the launch the result array is the layer of the arrays the launch found. -/
theorem out_eq (c : Dev nD) : (dat0 V c).arrAt 5 cfg0.N = G V c :=
  (dat0 V c).arrAt_eq_of_cover 5 (G V c) (fun t _ => flushed_eq V c t) cover

end Cert.Cheb.K0

end
-- ==== Proof.RefLayer.lean ====
/-
  The reference's three layers, each read at one entry.

  A layer of the reference is three `dot_general`s of whole arrays against the three slices of the layer's weight stack,
  added left to right, plus the bias broadcast over the rows, and for the first two layers the maximum with zero. At the
  extended reals a `dot_general` entry is the sum of the products over the contracted axis, so entry `(R, j)` of a layer
  is the pre-activation `comb` of the layer's three feature arrays at `(R, j)`.
-/
import proofs.«180513_j10187662426540_1_alg».proof.Proof.ReadP
import proofs.«180513_j10187662426540_1_alg».proof.Proof.Spec

noncomputable section

namespace Cert.Cheb.RL

open Cert.ReferenceIdeal Cert.ReferenceIdeal.ReadP Idealize.ShloMosaic Idealize.ShloMosaic.ValueIdx Cert.Cheb

/-- Entry `(R, j)` of the reference's first layer: the three products' sums over the 128 input columns, the bias, and the maximum with zero. -/
theorem layer0_apply (x0 : S100000x128.Idx → EReal) (x1 : S2x1600000.Idx → BitVec 32) (x3 : S3x128x64.Idx → EReal) (x4 : S64.Idx → EReal) (R : Fin 100000) (j : Fin 64) :
    val_main_v79 (F := Ideal) x0 x1 x3 x4 (ix2 R j)
      = max (comb x0 (val_main_v48 (F := Ideal) x0 x1) (val_main_v64 (F := Ideal) x0 x1) (val_main_v66 (F := Ideal) x3) (val_main_v69 (F := Ideal) x3) (val_main_v73 (F := Ideal) x3) (fun j => x4 (ix1 j)) R j) 0 := by
  have el0 : ∀ k : Fin 128, lidx_main_v67 (ix2 R j) k = ix2 R k := fun k => funext fun a => by
    match a with
    | ⟨0, _⟩ => rfl
    | ⟨1, _⟩ => rfl
  have er0 : ∀ k : Fin 128, ridx_main_v67 (ix2 R j) k = ix2 k j := fun k => funext fun a => by
    match a with
    | ⟨0, _⟩ => rfl
    | ⟨1, _⟩ => rfl
  have el1 : ∀ k : Fin 128, lidx_main_v70 (ix2 R j) k = ix2 R k := fun k => funext fun a => by
    match a with
    | ⟨0, _⟩ => rfl
    | ⟨1, _⟩ => rfl
  have er1 : ∀ k : Fin 128, ridx_main_v70 (ix2 R j) k = ix2 k j := fun k => funext fun a => by
    match a with
    | ⟨0, _⟩ => rfl
    | ⟨1, _⟩ => rfl
  have el2 : ∀ k : Fin 128, lidx_main_v74 (ix2 R j) k = ix2 R k := fun k => funext fun a => by
    match a with
    | ⟨0, _⟩ => rfl
    | ⟨1, _⟩ => rfl
  have er2 : ∀ k : Fin 128, ridx_main_v74 (ix2 R j) k = ix2 k j := fun k => funext fun a => by
    match a with
    | ⟨0, _⟩ => rfl
    | ⟨1, _⟩ => rfl
  have eb : idx_main_v76 (idx_main_v77 (ix2 R j)) = ix1 j := funext fun a => by
    match a with
    | ⟨0, _⟩ => rfl
  rw [val_main_v79_apply, val_main_v78_apply, val_main_v75_apply, val_main_v71_apply, val_main_v67_apply, val_main_v70_apply, val_main_v74_apply, val_main_v77_apply, val_main_v76_apply, val_main_call1_v0_apply, val_main_call1_cst_apply]
  simp only [el0, er0, el1, er1, el2, er2, eb]
  unfold comb mm
  show max _ (Ideal.ofBits .f32 0x00000000#32) = _
  rw [Ideal.ofBits_zero_f32]
  rfl

/-- Entry `(R, j)` of the reference's second layer: the three products' sums over the 64 input columns, the bias, and the maximum with zero. -/
theorem layer1_apply (x0 : S100000x128.Idx → EReal) (x1 : S2x1600000.Idx → BitVec 32) (x3 : S3x128x64.Idx → EReal) (x4 : S64.Idx → EReal) (x5 : S3x64x128.Idx → EReal) (x6 : S128.Idx → EReal) (R : Fin 100000) (j : Fin 128) :
    val_main_v123 (F := Ideal) x0 x1 x3 x4 x5 x6 (ix2 R j)
      = max (comb (val_main_v79 (F := Ideal) x0 x1 x3 x4) (val_main_v92 (F := Ideal) x0 x1 x3 x4) (val_main_v108 (F := Ideal) x0 x1 x3 x4) (val_main_v110 (F := Ideal) x5) (val_main_v113 (F := Ideal) x5) (val_main_v117 (F := Ideal) x5) (fun j => x6 (ix1 j)) R j) 0 := by
  have el0 : ∀ k : Fin 64, lidx_main_v111 (ix2 R j) k = ix2 R k := fun k => funext fun a => by
    match a with
    | ⟨0, _⟩ => rfl
    | ⟨1, _⟩ => rfl
  have er0 : ∀ k : Fin 64, ridx_main_v111 (ix2 R j) k = ix2 k j := fun k => funext fun a => by
    match a with
    | ⟨0, _⟩ => rfl
    | ⟨1, _⟩ => rfl
  have el1 : ∀ k : Fin 64, lidx_main_v114 (ix2 R j) k = ix2 R k := fun k => funext fun a => by
    match a with
    | ⟨0, _⟩ => rfl
    | ⟨1, _⟩ => rfl
  have er1 : ∀ k : Fin 64, ridx_main_v114 (ix2 R j) k = ix2 k j := fun k => funext fun a => by
    match a with
    | ⟨0, _⟩ => rfl
    | ⟨1, _⟩ => rfl
  have el2 : ∀ k : Fin 64, lidx_main_v118 (ix2 R j) k = ix2 R k := fun k => funext fun a => by
    match a with
    | ⟨0, _⟩ => rfl
    | ⟨1, _⟩ => rfl
  have er2 : ∀ k : Fin 64, ridx_main_v118 (ix2 R j) k = ix2 k j := fun k => funext fun a => by
    match a with
    | ⟨0, _⟩ => rfl
    | ⟨1, _⟩ => rfl
  have eb : idx_main_v120 (idx_main_v121 (ix2 R j)) = ix1 j := funext fun a => by
    match a with
    | ⟨0, _⟩ => rfl
  rw [val_main_v123_apply, val_main_v122_apply, val_main_v119_apply, val_main_v115_apply, val_main_v111_apply, val_main_v114_apply, val_main_v118_apply, val_main_v121_apply, val_main_v120_apply, val_main_call2_v0_apply, val_main_call2_cst_apply]
  simp only [el0, er0, el1, er1, el2, er2, eb]
  unfold comb mm
  show max _ (Ideal.ofBits .f32 0x00000000#32) = _
  rw [Ideal.ofBits_zero_f32]
  rfl

/-- Entry `(R, j)` of the reference's third layer: the three products' sums over the 128 input columns, the bias. -/
theorem layer2_apply (x0 : S100000x128.Idx → EReal) (x1 : S2x1600000.Idx → BitVec 32) (x3 : S3x128x64.Idx → EReal) (x4 : S64.Idx → EReal) (x5 : S3x64x128.Idx → EReal) (x6 : S128.Idx → EReal) (x7 : S3x128x256.Idx → EReal) (x8 : S256.Idx → EReal) (R : Fin 100000) (j : Fin 256) :
    val_main_v166 (F := Ideal) x0 x1 x3 x4 x5 x6 x7 x8 (ix2 R j)
      = comb (val_main_v123 (F := Ideal) x0 x1 x3 x4 x5 x6) (val_main_v136 (F := Ideal) x0 x1 x3 x4 x5 x6) (val_main_v152 (F := Ideal) x0 x1 x3 x4 x5 x6) (val_main_v154 (F := Ideal) x7) (val_main_v157 (F := Ideal) x7) (val_main_v161 (F := Ideal) x7) (fun j => x8 (ix1 j)) R j := by
  have el0 : ∀ k : Fin 128, lidx_main_v155 (ix2 R j) k = ix2 R k := fun k => funext fun a => by
    match a with
    | ⟨0, _⟩ => rfl
    | ⟨1, _⟩ => rfl
  have er0 : ∀ k : Fin 128, ridx_main_v155 (ix2 R j) k = ix2 k j := fun k => funext fun a => by
    match a with
    | ⟨0, _⟩ => rfl
    | ⟨1, _⟩ => rfl
  have el1 : ∀ k : Fin 128, lidx_main_v158 (ix2 R j) k = ix2 R k := fun k => funext fun a => by
    match a with
    | ⟨0, _⟩ => rfl
    | ⟨1, _⟩ => rfl
  have er1 : ∀ k : Fin 128, ridx_main_v158 (ix2 R j) k = ix2 k j := fun k => funext fun a => by
    match a with
    | ⟨0, _⟩ => rfl
    | ⟨1, _⟩ => rfl
  have el2 : ∀ k : Fin 128, lidx_main_v162 (ix2 R j) k = ix2 R k := fun k => funext fun a => by
    match a with
    | ⟨0, _⟩ => rfl
    | ⟨1, _⟩ => rfl
  have er2 : ∀ k : Fin 128, ridx_main_v162 (ix2 R j) k = ix2 k j := fun k => funext fun a => by
    match a with
    | ⟨0, _⟩ => rfl
    | ⟨1, _⟩ => rfl
  have eb : idx_main_v164 (idx_main_v165 (ix2 R j)) = ix1 j := funext fun a => by
    match a with
    | ⟨0, _⟩ => rfl
  rw [val_main_v166_apply, val_main_v163_apply, val_main_v159_apply, val_main_v155_apply, val_main_v158_apply, val_main_v162_apply, val_main_v165_apply, val_main_v164_apply]
  simp only [el0, er0, el1, er1, el2, er2, eb]
  unfold comb mm
  rfl

end Cert.Cheb.RL

end
-- ==== Proof.Stage1.lean ====
/-
  The first launch's result, and the buffers the second launch finds.

  The first launch leaves in its result buffer the layer of the arrays it found (the launch read as one array); those
  arrays are the reference's first-layer operands, and the layer at an entry is the reference's first layer at that
  entry, so the buffer holds the reference's first rectified output. The launch writes no other buffer. The host
  operations between the first and the second launch are again the reference's, applied to that output.
-/
import proofs.«180513_j10187662426540_1_alg».proof.Proof.HostA
import proofs.«180513_j10187662426540_1_alg».proof.Proof.Region0
import proofs.«180513_j10187662426540_1_alg».proof.Proof.RefLayer

set_option maxRecDepth 16384

noncomputable section

namespace Cert.Cheb.KV

open Cert.KernelIdeal Cert.KernelIdeal.Gen Idealize.ShloMosaic Idealize.ShloMosaic.TcCoe Idealize.ShloMosaic.ValueIdx
open Idealize.SL.Sem Cert.Cheb
open Cert.ReferenceIdeal.ReadP

variable (m : (ℓ : Loc nD τ sig) → Buf (Elt Ideal) ℓ) (ρ : Dev nD → PrngReg) (c : Dev nD)

/-! ## After the first launch -/

theorem b_v62 : W4 m ρ c (Proc.devRef .tc main_v62) = val_main_v79 (F := Ideal) (X0 m c) (X1 m c) (X3 m c) (X4 m c) := by
  refine (W4_arr m ρ c 5).trans ?_
  refine (K0.out_eq (V3 m ρ) c).trans ?_
  funext i
  obtain ⟨R, j, rfl⟩ : ∃ (R : Fin 100000) (j : Fin 64), i = ix2 R j := ⟨i 0, i 1, eq_ix2 i⟩
  rw [RL.layer0_apply]
  unfold K0.G
  rw [atIdx_ix2]
  show max (comb (V3 m ρ c main_arg0) (V3 m ρ c main_v44) (V3 m ρ c main_v60) (K0.w0 (V3 m ρ c main_arg3))
    (K0.w1 (V3 m ρ c main_arg3)) (K0.w2 (V3 m ρ c main_arg3)) (fun j => (V3 m ρ c main_v61 : S1x64.Idx → EReal) (ix2 (0 : Fin 1) j)) R j) 0 = _
  rw [a_arg0, a_v44, a_v60, a_arg3, a_v61]
  simp only [shapeCast_a_1a_apply]
  rfl

theorem b_v1 : W4 m ρ c (Proc.devRef .tc main_v1) = val_main_v1 (F := Ideal) (X1 m c) :=
  (W4_of_ne m ρ c main_v1 (by decide)).trans (a_v1 m ρ c)

theorem b_v3 : W4 m ρ c (Proc.devRef .tc main_v3) = val_main_v3 (F := Ideal) (X1 m c) :=
  (W4_of_ne m ρ c main_v3 (by decide)).trans (a_v3 m ρ c)

theorem b_v31 : W4 m ρ c (Proc.devRef .tc main_v31) = val_main_v35 (F := Ideal) (X1 m c) :=
  (W4_of_ne m ρ c main_v31 (by decide)).trans (a_v31 m ρ c)

theorem b_arg5 : W4 m ρ c (Proc.devRef .tc main_arg5) = X5 m c :=
  (W4_of_ne m ρ c main_arg5 (by decide)).trans (a_arg5 m ρ c)

theorem b_arg6 : W4 m ρ c (Proc.devRef .tc main_arg6) = X6 m c :=
  (W4_of_ne m ρ c main_arg6 (by decide)).trans (a_arg6 m ρ c)

theorem b_arg7 : W4 m ρ c (Proc.devRef .tc main_arg7) = X7 m c :=
  (W4_of_ne m ρ c main_arg7 (by decide)).trans (a_arg7 m ρ c)

theorem b_arg8 : W4 m ρ c (Proc.devRef .tc main_arg8) = X8 m c :=
  (W4_of_ne m ρ c main_arg8 (by decide)).trans (a_arg8 m ρ c)

/-! ## At the second launch's entry -/

attribute [local irreducible] Host.gather Host.scatterAdd Host.rsqrt Ideal.matmul in
set_option maxHeartbeats 1000000 in
theorem c_v75 : V5 m ρ c main_v75 = val_main_v92 (F := Ideal) (X0 m c) (X1 m c) (X3 m c) (X4 m c) := by
  show StableHlo.after hostOps1 (W4 m ρ c) (Proc.devRef .tc main_v75) = _
  after_results_simp
  rw [b_v62, b_v31, b_v1, b_v3]
  rfl
attribute [local irreducible] Host.gather Host.scatterAdd Host.rsqrt Ideal.matmul in
set_option maxHeartbeats 1000000 in
theorem c_v91 : V5 m ρ c main_v91 = val_main_v108 (F := Ideal) (X0 m c) (X1 m c) (X3 m c) (X4 m c) := by
  show StableHlo.after hostOps1 (W4 m ρ c) (Proc.devRef .tc main_v91) = _
  after_results_simp
  rw [b_v62, b_v31, b_v1, b_v3]
  rfl
theorem c_v92 : V5 m ρ c main_v92 = shapeCast S1x128 (X6 m c) shapeCasts_S128_S1x128 := by
  show StableHlo.after hostOps1 (W4 m ρ c) (Proc.devRef .tc main_v92) = _
  after_results_simp
  rw [b_arg6]
  rfl
theorem c_v62 : V5 m ρ c main_v62 = val_main_v79 (F := Ideal) (X0 m c) (X1 m c) (X3 m c) (X4 m c) := by
  show StableHlo.after hostOps1 (W4 m ρ c) (Proc.devRef .tc main_v62) = _
  after_results_simp
  exact b_v62 m ρ c
theorem c_arg5 : V5 m ρ c main_arg5 = X5 m c := by
  show StableHlo.after hostOps1 (W4 m ρ c) (Proc.devRef .tc main_arg5) = _
  after_results_simp
  exact b_arg5 m ρ c
theorem c_v1 : V5 m ρ c main_v1 = val_main_v1 (F := Ideal) (X1 m c) := by
  show StableHlo.after hostOps1 (W4 m ρ c) (Proc.devRef .tc main_v1) = _
  after_results_simp
  exact b_v1 m ρ c
theorem c_v3 : V5 m ρ c main_v3 = val_main_v3 (F := Ideal) (X1 m c) := by
  show StableHlo.after hostOps1 (W4 m ρ c) (Proc.devRef .tc main_v3) = _
  after_results_simp
  exact b_v3 m ρ c
theorem c_v31 : V5 m ρ c main_v31 = val_main_v35 (F := Ideal) (X1 m c) := by
  show StableHlo.after hostOps1 (W4 m ρ c) (Proc.devRef .tc main_v31) = _
  after_results_simp
  exact b_v31 m ρ c
theorem c_arg7 : V5 m ρ c main_arg7 = X7 m c := by
  show StableHlo.after hostOps1 (W4 m ρ c) (Proc.devRef .tc main_arg7) = _
  after_results_simp
  exact b_arg7 m ρ c
theorem c_arg8 : V5 m ρ c main_arg8 = X8 m c := by
  show StableHlo.after hostOps1 (W4 m ρ c) (Proc.devRef .tc main_arg8) = _
  after_results_simp
  exact b_arg8 m ρ c

end Cert.Cheb.KV

end
-- ==== Proof.Body1.lean ====
/-
  What one grid point of the second layer's kernel stores, read at an entry.

  The body loads a block of 4000 rows of each of the three feature arrays, the whole weight stack `W` (three
  `64 × 128` matrices) and the bias row, and stores
      max(((x0·W[0] + x1·W[1]) + x2·W[2]) + bias, 0).
  Each matrix-unit product starts from a zero accumulator, so at the extended reals its entry `(r, j)` is the plain
  sum over the 64 input columns; a change of float format is the identity there. Hence entry `(r, j)` of the stored
  block is the layer's pre-activation of the block's rows, at `(r, j)`, against zero.
-/
import proofs.«180513_j10187662426540_1_alg».proof.Proof.Gen.KernelIdeal.Skeleton
import proofs.«180513_j10187662426540_1_alg».proof.Proof.Spec
import Idealize.ShloMosaic.Lib.Pipeline.Value
import Idealize.ShloMosaic.Lib.ValueLayout

noncomputable section

namespace Cert.Cheb.K1

open Cert.KernelIdeal Cert.KernelIdeal.Gen Idealize.ShloMosaic Idealize.ShloMosaic.ValueIdx Cert.Cheb

/-- The kernel's matrix product: a block of 4000 rows against one `64 × 128` weight matrix. -/
abbrev D := dot_S4000x64_S64x128_S4000x128_1_0_0_1_n_n

/-- The three weight matrices, cut out of the stack as the body cuts them. -/
def w0 (W : S3x64x128.Idx → EReal) : S64x128.Idx → EReal :=
  shapeCast S64x128 (extractStridedSlice S1x64x128 ![0, 0, 0] W slices_S3x64x128_o0_0_0_S1x64x128) shapeCasts_S1x64x128_S64x128
def w1 (W : S3x64x128.Idx → EReal) : S64x128.Idx → EReal :=
  shapeCast S64x128 (extractStridedSlice S1x64x128 ![1, 0, 0] W slices_S3x64x128_o1_0_0_S1x64x128) shapeCasts_S1x64x128_S64x128
def w2 (W : S3x64x128.Idx → EReal) : S64x128.Idx → EReal :=
  shapeCast S64x128 (extractStridedSlice S1x64x128 ![2, 0, 0] W slices_S3x64x128_o2_0_0_S1x64x128) shapeCasts_S1x64x128_S64x128

theorem lhs0 (i : S4000x128.Idx) (q : D.contr.Idx) : (D.lhsIdx i q 0).val = (i 0).val := by
  unfold DotDims.lhsIdx
  rw [dif_neg (show ¬(0 : Fin S4000x64.rank) ∈ D.lhsBatch by decide), dif_pos (show (0 : Fin S4000x64.rank) ∈ D.lhsNonContracting by decide)]
  rfl
theorem lhs1 (i : S4000x128.Idx) (q : D.contr.Idx) : (D.lhsIdx i q 1).val = (q ⟨0, by decide⟩).val :=
  D.lhsIdx_val_of_single rfl i q
theorem rhs0 (i : S4000x128.Idx) (q : D.contr.Idx) : (D.rhsIdx i q 0).val = (q ⟨0, by decide⟩).val :=
  D.rhsIdx_val_of_single rfl i q
theorem rhs1 (i : S4000x128.Idx) (q : D.contr.Idx) : (D.rhsIdx i q 1).val = (i 1).val := by
  unfold DotDims.rhsIdx
  rw [dif_neg (show ¬(1 : Fin S64x128.rank) ∈ D.rhsBatch by decide), dif_pos (show (1 : Fin S64x128.rank) ∈ D.rhsNonContracting by decide)]
  rfl

/-- A matrix-unit product into a zero accumulator, at entry `(r, j)`: the sum over the 64 contracted columns. -/
theorem matmul_zero_apply (lhs : S4000x64.Idx → EReal) (rhs : S64x128.Idx → EReal) (r : Fin 4000) (j : Fin 128) :
    FloatOps.matmul (F := Ideal) (φ₁ := .bf16) (φ₂ := .bf16) D none lhs rhs (constant S4000x128 .f32 0x00000000#32) (ix2 r j) = mm lhs rhs r j := by
  refine (Ideal.matmul_constant_zero_apply (φ₁ := .bf16) (φ₂ := .bf16) D none lhs rhs (ix2 r j)).trans ?_
  rw [sum_contr1 D 64 rfl rfl]
  unfold mm
  refine Finset.sum_congr rfl fun k _ => ?_
  have hk := contrEquiv1_symm_val D 64 rfl rfl k
  have el : D.lhsIdx (ix2 r j) ((contrEquiv1 D 64 rfl rfl).symm k) = ix2 r k := funext fun a => Fin.ext (by
    match a with
    | ⟨0, _⟩ => exact lhs0 _ _
    | ⟨1, _⟩ => exact (lhs1 _ _).trans hk)
  have er : D.rhsIdx (ix2 r j) ((contrEquiv1 D 64 rfl rfl).symm k) = ix2 k j := funext fun a => Fin.ext (by
    match a with
    | ⟨0, _⟩ => exact (rhs0 _ _).trans hk
    | ⟨1, _⟩ => exact rhs1 _ _)
  rw [el, er]

/-- Entry `(r, j)` of the block the body stores. -/
theorem pay_apply (x0 x1 x2 : Vec Ideal S4000x64 .f32) (x3 : Vec Ideal S3x64x128 .f32) (x4 : Vec Ideal S1x128 .f32)
    (r : Fin 4000) (j : Fin 128) :
    k1_pay1 x0 x1 x2 x3 x4 (ix2 r j)
      = max (comb x0 x1 x2 (w0 x3) (w1 x3) (w2 x3) (fun j => x4 (ix2 (0 : Fin 1) j)) r j) 0 := by
  unfold k1_pay1
  simp only [shapeCast_self]
  show max (((FloatOps.matmul (F := Ideal) (φ₁ := .bf16) (φ₂ := .bf16) D none x0 (w0 x3) (constant S4000x128 .f32 0x00000000#32) (ix2 r j)
        + FloatOps.matmul (F := Ideal) (φ₁ := .bf16) (φ₂ := .bf16) D none x1 (w1 x3) (constant S4000x128 .f32 0x00000000#32) (ix2 r j))
        + FloatOps.matmul (F := Ideal) (φ₁ := .bf16) (φ₂ := .bf16) D none x2 (w2 x3) (constant S4000x128 .f32 0x00000000#32) (ix2 r j))
        + broadcastTo S4000x128 x4 broadcasts_S1x128_S4000x128 (ix2 r j)) (Ideal.ofBits .f32 0x00000000#32) = _
  rw [matmul_zero_apply, matmul_zero_apply, matmul_zero_apply, broadcastTo_1b_ab_apply, Ideal.ofBits_zero_f32]
  rfl

end Cert.Cheb.K1

end
-- ==== Proof.Region1.lean ====
/-
  The second layer's launch, as one array.

  The grid has 25 points; point `t` reads rows `4000·t … 4000·t + 3999` of the three feature arrays (their block index
  is `t` on the row axis and `0` on the column axis), the whole weight stack and the bias row (block index `0`), and
  writes rows `4000·t … 4000·t + 3999` of the result. What it writes at row `r` of its block is the layer's value
  at row `4000·t + r` of the arrays, because that value depends on that row alone; and the 25 row blocks tile the
  100000 rows. So after the launch the result array is the layer of the arrays the launch found.
-/
import proofs.«180513_j10187662426540_1_alg».proof.Proof.Gen.KernelIdeal.Frame
import proofs.«180513_j10187662426540_1_alg».proof.Proof.Body1
import Idealize.ShloMosaic.Lib.Pipeline.Value

set_option maxRecDepth 16384

noncomputable section

namespace Cert.Cheb.K1

open Cert.KernelIdeal Cert.KernelIdeal.Gen Idealize.ShloMosaic Idealize.ShloMosaic.TcCoe Idealize.ShloMosaic.ValueIdx
open Idealize.SL.Sem Cert.Cheb
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices of the six windows at a grid point, decided over the grid. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of the arrays the launch finds: entry `(R, j)` is `max(((A·W[0] + T1·W[1]) + T2·W[2])[R, j] + b[j], 0)`. -/
def G (c : Dev nD) : S100000x128.Idx → EReal :=
  atIdx fun R j => max (comb (V c main_v62 : S100000x64.Idx → EReal) (V c main_v75 : S100000x64.Idx → EReal)
    (V c main_v91 : S100000x64.Idx → EReal) (w0 (V c main_arg5)) (w1 (V c main_arg5)) (w2 (V c main_arg5))
    (fun j => (V c main_v92 : S1x128.Idx → EReal) (ix2 (0 : Fin 1) j)) R j) 0

/-- What point `t` writes back is block `t` of that array. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S4000x64) hz2, View.ld_unit_zero (S := S3x64x128) hz3, View.ld_unit_zero (S := S1x128) hz2]
  obtain ⟨e00, e01, e10, e11, e20, e21, e30, e31, e32, e40, e41, e50, e51⟩ := idx_facts t
  have ht : t.val < 25 := by have h := t.isLt; have hN : cfg1.N = 25 := N_1; omega
  funext y
  obtain ⟨r, j, rfl⟩ : ∃ (r : Fin 4000) (j : Fin 128), y = ix2 r j := ⟨y 0, y 1, eq_ix2 y⟩
  have hr : r.val < 4000 := r.isLt
  show k1_pay1 (iblk1 V c 0 t) (iblk1 V c 1 t) (iblk1 V c 2 t) (iblk1 V c 3 t) (iblk1 V c 4 t) (ix2 r j)
    = G V c (((cfg1.win 5).blk t).view.emb (ix2 r j))
  refine (pay_apply (iblk1 V c 0 t) (iblk1 V c 1 t) (iblk1 V c 2 t) (iblk1 V c 3 t) (iblk1 V c 4 t) r j).trans ?_
  have hemb : ((cfg1.win 5).blk t).view.emb (ix2 r j) = ix2 (⟨4000 * t.val + r.val, by omega⟩ : Fin 100000) j :=
    funext fun a => Fin.ext (by
      match a with
      | ⟨0, _⟩ => show win1_5.index t (0 : Fin 2) * 4000 + 1 * r.val = 4000 * t.val + r.val; rw [e50]; omega
      | ⟨1, _⟩ => show win1_5.index t (1 : Fin 2) * 128 + 1 * j.val = j.val; rw [e51]; omega)
  rw [hemb]
  unfold G
  rw [atIdx_ix2]
  have h3 : (iblk1 V c 3 t : S3x64x128.Idx → EReal) = V c main_arg5 := funext fun y => by
    show V c main_arg5 (((cfg1.win 3).blk t).view.emb y) = V c main_arg5 y
    refine congrArg _ (funext fun a => Fin.ext ?_)
    match a with
    | ⟨0, _⟩ => show win1_3.index t (0 : Fin 3) * 3 + 1 * (y 0).val = (y 0).val; rw [e30]; omega
    | ⟨1, _⟩ => show win1_3.index t (1 : Fin 3) * 64 + 1 * (y 1).val = (y 1).val; rw [e31]; omega
    | ⟨2, _⟩ => show win1_3.index t (2 : Fin 3) * 128 + 1 * (y 2).val = (y 2).val; rw [e32]; omega
  have h4 : (iblk1 V c 4 t : S1x128.Idx → EReal) = V c main_v92 := funext fun y => by
    show V c main_v92 (((cfg1.win 4).blk t).view.emb y) = V c main_v92 y
    refine congrArg _ (funext fun a => Fin.ext ?_)
    match a with
    | ⟨0, _⟩ => show win1_4.index t (0 : Fin 2) * 1 + 1 * (y 0).val = (y 0).val; rw [e40]; omega
    | ⟨1, _⟩ => show win1_4.index t (1 : Fin 2) * 128 + 1 * (y 1).val = (y 1).val; rw [e41]; omega
  have h0 : ∀ k : Fin 64, (iblk1 V c 0 t : S4000x64.Idx → EReal) (ix2 r k)
      = (V c main_v62 : S100000x64.Idx → EReal) (ix2 (⟨4000 * t.val + r.val, by omega⟩ : Fin 100000) k) := fun k => by
    show V c main_v62 (((cfg1.win 0).blk t).view.emb (ix2 r k)) = _
    refine congrArg _ (funext fun a => Fin.ext ?_)
    match a with
    | ⟨0, _⟩ => show win1_0.index t (0 : Fin 2) * 4000 + 1 * r.val = 4000 * t.val + r.val; rw [e00]; omega
    | ⟨1, _⟩ => show win1_0.index t (1 : Fin 2) * 64 + 1 * k.val = k.val; rw [e01]; omega
  have h1 : ∀ k : Fin 64, (iblk1 V c 1 t : S4000x64.Idx → EReal) (ix2 r k)
      = (V c main_v75 : S100000x64.Idx → EReal) (ix2 (⟨4000 * t.val + r.val, by omega⟩ : Fin 100000) k) := fun k => by
    show V c main_v75 (((cfg1.win 1).blk t).view.emb (ix2 r k)) = _
    refine congrArg _ (funext fun a => Fin.ext ?_)
    match a with
    | ⟨0, _⟩ => show win1_1.index t (0 : Fin 2) * 4000 + 1 * r.val = 4000 * t.val + r.val; rw [e10]; omega
    | ⟨1, _⟩ => show win1_1.index t (1 : Fin 2) * 64 + 1 * k.val = k.val; rw [e11]; omega
  have h2 : ∀ k : Fin 64, (iblk1 V c 2 t : S4000x64.Idx → EReal) (ix2 r k)
      = (V c main_v91 : S100000x64.Idx → EReal) (ix2 (⟨4000 * t.val + r.val, by omega⟩ : Fin 100000) k) := fun k => by
    show V c main_v91 (((cfg1.win 2).blk t).view.emb (ix2 r k)) = _
    refine congrArg _ (funext fun a => Fin.ext ?_)
    match a with
    | ⟨0, _⟩ => show win1_2.index t (0 : Fin 2) * 4000 + 1 * r.val = 4000 * t.val + r.val; rw [e20]; omega
    | ⟨1, _⟩ => show win1_2.index t (1 : Fin 2) * 64 + 1 * k.val = k.val; rw [e21]; omega
  rw [h3, h4]
  exact congrArg (max · 0) (comb_rows _ _ _ _ _ _ _ _ _ _ _ _ _ h0 h1 h2)

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v93).slice (win1_5.rect t)).set ↔ _
  rw [View.set_slice_whole, Rect.mem_set_unit]
  exact Iff.rfl

/-- Every row is in some point's block: row `R` in point `R / 4000`'s. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by have hN : cfg1.N = 25 := N_1; omega⟩, rfl⟩
  obtain ⟨e00, e01, e10, e11, e20, e21, e30, e31, e32, e40, e41, e50, e51⟩ := idx_facts t
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; rw [e50, ht]; omega
  | ⟨1, _⟩ => show win1_5.index t (1 : Fin 2) * 128 ≤ (i 1).val ∧ (i 1).val < win1_5.index t (1 : Fin 2) * 128 + 128; rw [e51]; omega

/-- After the launch the result array is the layer of the arrays the launch found. -/
theorem out_eq (c : Dev nD) : (dat1 V c).arrAt 5 cfg1.N = G V c :=
  (dat1 V c).arrAt_eq_of_cover 5 (G V c) (fun t _ => flushed_eq V c t) cover

end Cert.Cheb.K1

end
-- ==== Proof.Stage2.lean ====
/-
  The second launch's result, and the buffers the third launch finds.

  As for the first launch: the second launch leaves in its result buffer the layer of the arrays it found, which are the
  reference's second-layer operands, so the buffer holds the reference's second rectified output; the host operations
  between the second and the third launch are the reference's, applied to that output.
-/
import proofs.«180513_j10187662426540_1_alg».proof.Proof.Stage1
import proofs.«180513_j10187662426540_1_alg».proof.Proof.Region1

set_option maxRecDepth 16384

noncomputable section

namespace Cert.Cheb.KV

open Cert.KernelIdeal Cert.KernelIdeal.Gen Idealize.ShloMosaic Idealize.ShloMosaic.TcCoe Idealize.ShloMosaic.ValueIdx
open Idealize.SL.Sem Cert.Cheb
open Cert.ReferenceIdeal.ReadP

variable (m : (ℓ : Loc nD τ sig) → Buf (Elt Ideal) ℓ) (ρ : Dev nD → PrngReg) (c : Dev nD)

/-! ## After the second launch -/

theorem d_v93 : W6 m ρ c (Proc.devRef .tc main_v93) = val_main_v123 (F := Ideal) (X0 m c) (X1 m c) (X3 m c) (X4 m c) (X5 m c) (X6 m c) := by
  refine (W6_arr m ρ c 5).trans ?_
  refine (K1.out_eq (V5 m ρ) c).trans ?_
  funext i
  obtain ⟨R, j, rfl⟩ : ∃ (R : Fin 100000) (j : Fin 128), i = ix2 R j := ⟨i 0, i 1, eq_ix2 i⟩
  rw [RL.layer1_apply]
  unfold K1.G
  rw [atIdx_ix2]
  show max (comb (V5 m ρ c main_v62) (V5 m ρ c main_v75) (V5 m ρ c main_v91) (K1.w0 (V5 m ρ c main_arg5))
    (K1.w1 (V5 m ρ c main_arg5)) (K1.w2 (V5 m ρ c main_arg5)) (fun j => (V5 m ρ c main_v92 : S1x128.Idx → EReal) (ix2 (0 : Fin 1) j)) R j) 0 = _
  rw [c_v62, c_v75, c_v91, c_arg5, c_v92]
  simp only [shapeCast_a_1a_apply]
  rfl

theorem d_v1 : W6 m ρ c (Proc.devRef .tc main_v1) = val_main_v1 (F := Ideal) (X1 m c) :=
  (W6_of_ne m ρ c main_v1 (by decide)).trans (c_v1 m ρ c)

theorem d_v3 : W6 m ρ c (Proc.devRef .tc main_v3) = val_main_v3 (F := Ideal) (X1 m c) :=
  (W6_of_ne m ρ c main_v3 (by decide)).trans (c_v3 m ρ c)

theorem d_v31 : W6 m ρ c (Proc.devRef .tc main_v31) = val_main_v35 (F := Ideal) (X1 m c) :=
  (W6_of_ne m ρ c main_v31 (by decide)).trans (c_v31 m ρ c)

theorem d_arg7 : W6 m ρ c (Proc.devRef .tc main_arg7) = X7 m c :=
  (W6_of_ne m ρ c main_arg7 (by decide)).trans (c_arg7 m ρ c)

theorem d_arg8 : W6 m ρ c (Proc.devRef .tc main_arg8) = X8 m c :=
  (W6_of_ne m ρ c main_arg8 (by decide)).trans (c_arg8 m ρ c)

/-! ## At the third launch's entry -/

attribute [local irreducible] Host.gather Host.scatterAdd Host.rsqrt Ideal.matmul in
set_option maxHeartbeats 1000000 in
theorem e_v106 : V7 m ρ c main_v106 = val_main_v136 (F := Ideal) (X0 m c) (X1 m c) (X3 m c) (X4 m c) (X5 m c) (X6 m c) := by
  show StableHlo.after hostOps2 (W6 m ρ c) (Proc.devRef .tc main_v106) = _
  after_results_simp
  rw [d_v93, d_v31, d_v1, d_v3]
  rfl
attribute [local irreducible] Host.gather Host.scatterAdd Host.rsqrt Ideal.matmul in
set_option maxHeartbeats 1000000 in
theorem e_v122 : V7 m ρ c main_v122 = val_main_v152 (F := Ideal) (X0 m c) (X1 m c) (X3 m c) (X4 m c) (X5 m c) (X6 m c) := by
  show StableHlo.after hostOps2 (W6 m ρ c) (Proc.devRef .tc main_v122) = _
  after_results_simp
  rw [d_v93, d_v31, d_v1, d_v3]
  rfl
theorem e_v123 : V7 m ρ c main_v123 = shapeCast S1x256 (X8 m c) shapeCasts_S256_S1x256 := by
  show StableHlo.after hostOps2 (W6 m ρ c) (Proc.devRef .tc main_v123) = _
  after_results_simp
  rw [d_arg8]
  rfl
theorem e_v93 : V7 m ρ c main_v93 = val_main_v123 (F := Ideal) (X0 m c) (X1 m c) (X3 m c) (X4 m c) (X5 m c) (X6 m c) := by
  show StableHlo.after hostOps2 (W6 m ρ c) (Proc.devRef .tc main_v93) = _
  after_results_simp
  exact d_v93 m ρ c
theorem e_arg7 : V7 m ρ c main_arg7 = X7 m c := by
  show StableHlo.after hostOps2 (W6 m ρ c) (Proc.devRef .tc main_arg7) = _
  after_results_simp
  exact d_arg7 m ρ c

end Cert.Cheb.KV

end
-- ==== Proof.Body2.lean ====
/-
  What one grid point of the third layer's kernel stores, read at an entry.

  The body loads a block of 4000 rows of each of the three feature arrays, the whole weight stack `W` (three
  `128 × 256` matrices) and the bias row, and stores
      ((x0·W[0] + x1·W[1]) + x2·W[2]) + bias.
  Each matrix-unit product starts from a zero accumulator, so at the extended reals its entry `(r, j)` is the plain
  sum over the 128 input columns; a change of float format is the identity there. Hence entry `(r, j)` of the stored
  block is the layer's pre-activation of the block's rows, at `(r, j)` (this last layer is not rectified).
-/
import proofs.«180513_j10187662426540_1_alg».proof.Proof.Gen.KernelIdeal.Skeleton
import proofs.«180513_j10187662426540_1_alg».proof.Proof.Spec
import Idealize.ShloMosaic.Lib.Pipeline.Value
import Idealize.ShloMosaic.Lib.ValueLayout

noncomputable section

namespace Cert.Cheb.K2

open Cert.KernelIdeal Cert.KernelIdeal.Gen Idealize.ShloMosaic Idealize.ShloMosaic.ValueIdx Cert.Cheb

/-- The kernel's matrix product: a block of 4000 rows against one `128 × 256` weight matrix. -/
abbrev D := dot_S4000x128_S128x256_S4000x256_1_0_0_1_n_n

/-- The three weight matrices, cut out of the stack as the body cuts them. -/
def w0 (W : S3x128x256.Idx → EReal) : S128x256.Idx → EReal :=
  shapeCast S128x256 (extractStridedSlice S1x128x256 ![0, 0, 0] W slices_S3x128x256_o0_0_0_S1x128x256) shapeCasts_S1x128x256_S128x256
def w1 (W : S3x128x256.Idx → EReal) : S128x256.Idx → EReal :=
  shapeCast S128x256 (extractStridedSlice S1x128x256 ![1, 0, 0] W slices_S3x128x256_o1_0_0_S1x128x256) shapeCasts_S1x128x256_S128x256
def w2 (W : S3x128x256.Idx → EReal) : S128x256.Idx → EReal :=
  shapeCast S128x256 (extractStridedSlice S1x128x256 ![2, 0, 0] W slices_S3x128x256_o2_0_0_S1x128x256) shapeCasts_S1x128x256_S128x256

theorem lhs0 (i : S4000x256.Idx) (q : D.contr.Idx) : (D.lhsIdx i q 0).val = (i 0).val := by
  unfold DotDims.lhsIdx
  rw [dif_neg (show ¬(0 : Fin S4000x128.rank) ∈ D.lhsBatch by decide), dif_pos (show (0 : Fin S4000x128.rank) ∈ D.lhsNonContracting by decide)]
  rfl
theorem lhs1 (i : S4000x256.Idx) (q : D.contr.Idx) : (D.lhsIdx i q 1).val = (q ⟨0, by decide⟩).val :=
  D.lhsIdx_val_of_single rfl i q
theorem rhs0 (i : S4000x256.Idx) (q : D.contr.Idx) : (D.rhsIdx i q 0).val = (q ⟨0, by decide⟩).val :=
  D.rhsIdx_val_of_single rfl i q
theorem rhs1 (i : S4000x256.Idx) (q : D.contr.Idx) : (D.rhsIdx i q 1).val = (i 1).val := by
  unfold DotDims.rhsIdx
  rw [dif_neg (show ¬(1 : Fin S128x256.rank) ∈ D.rhsBatch by decide), dif_pos (show (1 : Fin S128x256.rank) ∈ D.rhsNonContracting by decide)]
  rfl

/-- A matrix-unit product into a zero accumulator, at entry `(r, j)`: the sum over the 128 contracted columns. -/
theorem matmul_zero_apply (lhs : S4000x128.Idx → EReal) (rhs : S128x256.Idx → EReal) (r : Fin 4000) (j : Fin 256) :
    FloatOps.matmul (F := Ideal) (φ₁ := .bf16) (φ₂ := .bf16) D none lhs rhs (constant S4000x256 .f32 0x00000000#32) (ix2 r j) = mm lhs rhs r j := by
  refine (Ideal.matmul_constant_zero_apply (φ₁ := .bf16) (φ₂ := .bf16) D none lhs rhs (ix2 r j)).trans ?_
  rw [sum_contr1 D 128 rfl rfl]
  unfold mm
  refine Finset.sum_congr rfl fun k _ => ?_
  have hk := contrEquiv1_symm_val D 128 rfl rfl k
  have el : D.lhsIdx (ix2 r j) ((contrEquiv1 D 128 rfl rfl).symm k) = ix2 r k := funext fun a => Fin.ext (by
    match a with
    | ⟨0, _⟩ => exact lhs0 _ _
    | ⟨1, _⟩ => exact (lhs1 _ _).trans hk)
  have er : D.rhsIdx (ix2 r j) ((contrEquiv1 D 128 rfl rfl).symm k) = ix2 k j := funext fun a => Fin.ext (by
    match a with
    | ⟨0, _⟩ => exact (rhs0 _ _).trans hk
    | ⟨1, _⟩ => exact rhs1 _ _)
  rw [el, er]

/-- Entry `(r, j)` of the block the body stores. -/
theorem pay_apply (x0 x1 x2 : Vec Ideal S4000x128 .f32) (x3 : Vec Ideal S3x128x256 .f32) (x4 : Vec Ideal S1x256 .f32)
    (r : Fin 4000) (j : Fin 256) :
    k2_pay1 x0 x1 x2 x3 x4 (ix2 r j)
      = comb x0 x1 x2 (w0 x3) (w1 x3) (w2 x3) (fun j => x4 (ix2 (0 : Fin 1) j)) r j := by
  unfold k2_pay1
  simp only [shapeCast_self]
  show (((FloatOps.matmul (F := Ideal) (φ₁ := .bf16) (φ₂ := .bf16) D none x0 (w0 x3) (constant S4000x256 .f32 0x00000000#32) (ix2 r j)
        + FloatOps.matmul (F := Ideal) (φ₁ := .bf16) (φ₂ := .bf16) D none x1 (w1 x3) (constant S4000x256 .f32 0x00000000#32) (ix2 r j))
        + FloatOps.matmul (F := Ideal) (φ₁ := .bf16) (φ₂ := .bf16) D none x2 (w2 x3) (constant S4000x256 .f32 0x00000000#32) (ix2 r j))
        + broadcastTo S4000x256 x4 broadcasts_S1x256_S4000x256 (ix2 r j)) = _
  rw [matmul_zero_apply, matmul_zero_apply, matmul_zero_apply, broadcastTo_1b_ab_apply]
  rfl

end Cert.Cheb.K2

end
-- ==== Proof.Region2.lean ====
/-
  The third layer's launch, as one array.

  The grid has 25 points; point `t` reads rows `4000·t … 4000·t + 3999` of the three feature arrays (their block index
  is `t` on the row axis and `0` on the column axis), the whole weight stack and the bias row (block index `0`), and
  writes rows `4000·t … 4000·t + 3999` of the result. What it writes at row `r` of its block is the layer's value
  at row `4000·t + r` of the arrays, because that value depends on that row alone; and the 25 row blocks tile the
  100000 rows. So after the launch the result array is the layer of the arrays the launch found.
-/
import proofs.«180513_j10187662426540_1_alg».proof.Proof.Gen.KernelIdeal.Frame
import proofs.«180513_j10187662426540_1_alg».proof.Proof.Body2
import Idealize.ShloMosaic.Lib.Pipeline.Value

set_option maxRecDepth 16384

noncomputable section

namespace Cert.Cheb.K2

open Cert.KernelIdeal Cert.KernelIdeal.Gen Idealize.ShloMosaic Idealize.ShloMosaic.TcCoe Idealize.ShloMosaic.ValueIdx
open Idealize.SL.Sem Cert.Cheb
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices of the six windows at a grid point, decided over the grid. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = 0 ∧ win2_3.index t (1 : Fin 3) = 0 ∧ win2_3.index t (2 : Fin 3) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer of the arrays the launch finds: entry `(R, j)` is `((A·W[0] + T1·W[1]) + T2·W[2])[R, j] + b[j]`. -/
def G (c : Dev nD) : S100000x256.Idx → EReal :=
  atIdx fun R j => (comb (V c main_v93 : S100000x128.Idx → EReal) (V c main_v106 : S100000x128.Idx → EReal)
    (V c main_v122 : S100000x128.Idx → EReal) (w0 (V c main_arg7)) (w1 (V c main_arg7)) (w2 (V c main_arg7))
    (fun j => (V c main_v123 : S1x256.Idx → EReal) (ix2 (0 : Fin 1) j)) R j)

/-- What point `t` writes back is block `t` of that array. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S3x128x256) hz3, View.ld_unit_zero (S := S1x256) hz2]
  obtain ⟨e00, e01, e10, e11, e20, e21, e30, e31, e32, e40, e41, e50, e51⟩ := idx_facts t
  have ht : t.val < 25 := by have h := t.isLt; have hN : cfg2.N = 25 := N_2; omega
  funext y
  obtain ⟨r, j, rfl⟩ : ∃ (r : Fin 4000) (j : Fin 256), y = ix2 r j := ⟨y 0, y 1, eq_ix2 y⟩
  have hr : r.val < 4000 := r.isLt
  show k2_pay1 (iblk2 V c 0 t) (iblk2 V c 1 t) (iblk2 V c 2 t) (iblk2 V c 3 t) (iblk2 V c 4 t) (ix2 r j)
    = G V c (((cfg2.win 5).blk t).view.emb (ix2 r j))
  refine (pay_apply (iblk2 V c 0 t) (iblk2 V c 1 t) (iblk2 V c 2 t) (iblk2 V c 3 t) (iblk2 V c 4 t) r j).trans ?_
  have hemb : ((cfg2.win 5).blk t).view.emb (ix2 r j) = ix2 (⟨4000 * t.val + r.val, by omega⟩ : Fin 100000) j :=
    funext fun a => Fin.ext (by
      match a with
      | ⟨0, _⟩ => show win2_5.index t (0 : Fin 2) * 4000 + 1 * r.val = 4000 * t.val + r.val; rw [e50]; omega
      | ⟨1, _⟩ => show win2_5.index t (1 : Fin 2) * 256 + 1 * j.val = j.val; rw [e51]; omega)
  rw [hemb]
  unfold G
  rw [atIdx_ix2]
  have h3 : (iblk2 V c 3 t : S3x128x256.Idx → EReal) = V c main_arg7 := funext fun y => by
    show V c main_arg7 (((cfg2.win 3).blk t).view.emb y) = V c main_arg7 y
    refine congrArg _ (funext fun a => Fin.ext ?_)
    match a with
    | ⟨0, _⟩ => show win2_3.index t (0 : Fin 3) * 3 + 1 * (y 0).val = (y 0).val; rw [e30]; omega
    | ⟨1, _⟩ => show win2_3.index t (1 : Fin 3) * 128 + 1 * (y 1).val = (y 1).val; rw [e31]; omega
    | ⟨2, _⟩ => show win2_3.index t (2 : Fin 3) * 256 + 1 * (y 2).val = (y 2).val; rw [e32]; omega
  have h4 : (iblk2 V c 4 t : S1x256.Idx → EReal) = V c main_v123 := funext fun y => by
    show V c main_v123 (((cfg2.win 4).blk t).view.emb y) = V c main_v123 y
    refine congrArg _ (funext fun a => Fin.ext ?_)
    match a with
    | ⟨0, _⟩ => show win2_4.index t (0 : Fin 2) * 1 + 1 * (y 0).val = (y 0).val; rw [e40]; omega
    | ⟨1, _⟩ => show win2_4.index t (1 : Fin 2) * 256 + 1 * (y 1).val = (y 1).val; rw [e41]; omega
  have h0 : ∀ k : Fin 128, (iblk2 V c 0 t : S4000x128.Idx → EReal) (ix2 r k)
      = (V c main_v93 : S100000x128.Idx → EReal) (ix2 (⟨4000 * t.val + r.val, by omega⟩ : Fin 100000) k) := fun k => by
    show V c main_v93 (((cfg2.win 0).blk t).view.emb (ix2 r k)) = _
    refine congrArg _ (funext fun a => Fin.ext ?_)
    match a with
    | ⟨0, _⟩ => show win2_0.index t (0 : Fin 2) * 4000 + 1 * r.val = 4000 * t.val + r.val; rw [e00]; omega
    | ⟨1, _⟩ => show win2_0.index t (1 : Fin 2) * 128 + 1 * k.val = k.val; rw [e01]; omega
  have h1 : ∀ k : Fin 128, (iblk2 V c 1 t : S4000x128.Idx → EReal) (ix2 r k)
      = (V c main_v106 : S100000x128.Idx → EReal) (ix2 (⟨4000 * t.val + r.val, by omega⟩ : Fin 100000) k) := fun k => by
    show V c main_v106 (((cfg2.win 1).blk t).view.emb (ix2 r k)) = _
    refine congrArg _ (funext fun a => Fin.ext ?_)
    match a with
    | ⟨0, _⟩ => show win2_1.index t (0 : Fin 2) * 4000 + 1 * r.val = 4000 * t.val + r.val; rw [e10]; omega
    | ⟨1, _⟩ => show win2_1.index t (1 : Fin 2) * 128 + 1 * k.val = k.val; rw [e11]; omega
  have h2 : ∀ k : Fin 128, (iblk2 V c 2 t : S4000x128.Idx → EReal) (ix2 r k)
      = (V c main_v122 : S100000x128.Idx → EReal) (ix2 (⟨4000 * t.val + r.val, by omega⟩ : Fin 100000) k) := fun k => by
    show V c main_v122 (((cfg2.win 2).blk t).view.emb (ix2 r k)) = _
    refine congrArg _ (funext fun a => Fin.ext ?_)
    match a with
    | ⟨0, _⟩ => show win2_2.index t (0 : Fin 2) * 4000 + 1 * r.val = 4000 * t.val + r.val; rw [e20]; omega
    | ⟨1, _⟩ => show win2_2.index t (1 : Fin 2) * 128 + 1 * k.val = k.val; rw [e21]; omega
  rw [h3, h4]
  exact comb_rows _ _ _ _ _ _ _ _ _ _ _ _ _ h0 h1 h2

/-- An index of the result array is in point `t`'s block iff each coordinate is in the block's range on its axis. -/
theorem mem_blk (t : Fin cfg2.N) (i : S100000x256.Idx) :
    i ∈ ((cfg2.win 5).blk t).view.set ↔ ∀ a : Fin 2, win2_5.index t a * S4000x256.size a ≤ (i a).val ∧ (i a).val < win2_5.index t a * S4000x256.size a + S4000x256.size a := by
  show i ∈ ((View.whole main_v124).slice (win2_5.rect t)).set ↔ _
  rw [View.set_slice_whole, Rect.mem_set_unit]
  exact Iff.rfl

/-- Every row is in some point's block: row `R` in point `R / 4000`'s. -/
theorem cover (i : S100000x256.Idx) :
    ∃ t : Fin cfg2.N, (cfg2.win 5).flush t = true ∧ i ∈ ((cfg2.win 5).blk t).view.set := by
  have hi0 : (i 0).val < 100000 := (i 0).isLt
  have hi1 : (i 1).val < 256 := (i 1).isLt
  obtain ⟨t, ht⟩ : ∃ t : Fin cfg2.N, t.val = (i 0).val / 4000 :=
    ⟨⟨(i 0).val / 4000, by have hN : cfg2.N = 25 := N_2; omega⟩, rfl⟩
  obtain ⟨e00, e01, e10, e11, e20, e21, e30, e31, e32, e40, e41, e50, e51⟩ := idx_facts t
  refine ⟨t, flush2_5 t, ?_⟩
  rw [mem_blk]
  intro a
  match a with
  | ⟨0, _⟩ => show win2_5.index t (0 : Fin 2) * 4000 ≤ (i 0).val ∧ (i 0).val < win2_5.index t (0 : Fin 2) * 4000 + 4000; rw [e50, ht]; omega
  | ⟨1, _⟩ => show win2_5.index t (1 : Fin 2) * 256 ≤ (i 1).val ∧ (i 1).val < win2_5.index t (1 : Fin 2) * 256 + 256; rw [e51]; omega

/-- After the launch the result array is the layer of the arrays the launch found. -/
theorem out_eq (c : Dev nD) : (dat2 V c).arrAt 5 cfg2.N = G V c :=
  (dat2 V c).arrAt_eq_of_cover 5 (G V c) (fun t _ => flushed_eq V c t) cover

end Cert.Cheb.K2

end
-- ==== Proof.Stage3.lean ====
/-
  The third launch's result: the idealized kernel's result array, as a function of the arguments.

  The third launch leaves in the result buffer the (unrectified) layer of the arrays it found, which are the reference's
  third-layer operands: the buffer holds the reference's result, `val_main_v166` of the arguments.
-/
import proofs.«180513_j10187662426540_1_alg».proof.Proof.Stage2
import proofs.«180513_j10187662426540_1_alg».proof.Proof.Region2

set_option maxRecDepth 16384

noncomputable section

namespace Cert.Cheb.KV

open Cert.KernelIdeal Cert.KernelIdeal.Gen Idealize.ShloMosaic Idealize.ShloMosaic.TcCoe Idealize.ShloMosaic.ValueIdx
open Idealize.SL.Sem Cert.Cheb
open Cert.ReferenceIdeal.ReadP

variable (m : (ℓ : Loc nD τ sig) → Buf (Elt Ideal) ℓ) (ρ : Dev nD → PrngReg) (c : Dev nD)

theorem f_v124 : W8 m ρ c (Proc.devRef .tc main_v124) = val_main_v166 (F := Ideal) (X0 m c) (X1 m c) (X3 m c) (X4 m c) (X5 m c) (X6 m c) (X7 m c) (X8 m c) := by
  refine (W8_arr m ρ c 5).trans ?_
  refine (K2.out_eq (V7 m ρ) c).trans ?_
  funext i
  obtain ⟨R, j, rfl⟩ : ∃ (R : Fin 100000) (j : Fin 256), i = ix2 R j := ⟨i 0, i 1, eq_ix2 i⟩
  rw [RL.layer2_apply]
  unfold K2.G
  rw [atIdx_ix2]
  show comb (V7 m ρ c main_v93) (V7 m ρ c main_v106) (V7 m ρ c main_v122) (K2.w0 (V7 m ρ c main_arg7))
    (K2.w1 (V7 m ρ c main_arg7)) (K2.w2 (V7 m ρ c main_arg7)) (fun j => (V7 m ρ c main_v123 : S1x256.Idx → EReal) (ix2 (0 : Fin 1) j)) R j = _
  rw [e_v93, e_v106, e_v122, e_arg7, e_v123]
  simp only [shapeCast_a_1a_apply]
  rfl

end Cert.Cheb.KV

end
-- ==== Proof.RefOps.lean ====
/-
  The reference program's operations, in program order, cut into seven stretches.

  The reference is a straight line of 202 host operations. Three short stretches are the bodies of functions jax outlined
  (one `where`, two rectifiers), whose operations are over typed references; the four long stretches between them are
  plain operations. The cut lets each stretch be read by itself, from the contents the stretch before it left.
-/
import proofs.«180513_j10187662426540_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge endpoints, the self-loop mask, the degrees and their inverse square roots before the `where`: operations 1 … 22. -/
abbrev opsA1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg1 main_v4 ((extractStridedSlice S1x1600000 ![0, 0] · slices_S2x1600000_S1x1600000_0_0) : (⟨S2x1600000, .i32⟩ : BufTy).Contents (Elt F) → (⟨S1x1600000, .i32⟩ : BufTy).Contents (Elt F)),
    reshape main_v4 main_v5 rfl shapeCasts_S1x1600000_S1600000,
    unary main_arg1 main_v6 ((extractStridedSlice S1x1600000 ![1, 0] · slices_S2x1600000_S1x1600000_1_0) : (⟨S2x1600000, .i32⟩ : BufTy).Contents (Elt F) → (⟨S1x1600000, .i32⟩ : BufTy).Contents (Elt F)),
    reshape main_v6 main_v7 rfl shapeCasts_S1x1600000_S1600000,
    binary main_v5 main_v7 main_v8 (cmpi .ne : (⟨S1600000, .i32⟩ : BufTy).Contents (Elt F) → (⟨S1600000, .i32⟩ : BufTy).Contents (Elt F) → (⟨S1600000, .i1⟩ : BufTy).Contents (Elt F)),
    unary main_v8 main_v9 (uitofp .f32 : (⟨S1600000, .i1⟩ : BufTy).Contents (Elt F) → (⟨S1600000, .f32⟩ : BufTy).Contents (Elt F)),
    nullary main_cst (constant S_ .f32 0x00000000#32),
    unary main_cst main_v10 (broadcastInDim S100000 ![] bcast_S_S100000 : (⟨S_, .f32⟩ : BufTy).Contents (Elt F) → (⟨S100000, .f32⟩ : BufTy).Contents (Elt F)),
    unary main_v5 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_0 (constant S_ .f32 0x00000000#32),
    unary main_cst_0 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    nullary main_cst_1 (constant S_ .f32 0x3F800000#32),
    unary main_cst_1 main_v15 (broadcastInDim S100000 ![] bcast_S_S100000 : (⟨S_, .f32⟩ : BufTy).Contents (Elt F) → (⟨S100000, .f32⟩ : BufTy).Contents (Elt F)),
    binary main_v12 main_v15 main_v16 (maximumf : (⟨S100000, .f32⟩ : BufTy).Contents (Elt F) → (⟨S100000, .f32⟩ : BufTy).Contents (Elt F) → (⟨S100000, .f32⟩ : BufTy).Contents (Elt F)),
    unary main_v16 main_v17 (Host.rsqrt : (⟨S100000, .f32⟩ : BufTy).Contents (Elt F) → (⟨S100000, .f32⟩ : BufTy).Contents (Elt F)),
    nullary main_cst_2 (constant S_ .f32 0x00000000#32) ]

/-- The outlined `where`: operations 23 … 25, over typed references. -/
abbrev opsAw : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v17) (TRef.of (T := ⟨S100000, .f32⟩) main_call0_v1) (TRef.of (T := ⟨S100000, .f32⟩) main_v18) select ]

/-- The edge weights and the first layer before its rectifier: operations 26 … 96. -/
abbrev opsA2 : List (HloOp τ sig (Elt F)) :=
  [ nullary main_c (constantI S_ 32 0#32),
    unary main_c main_v19 (broadcastInDim S1600000 ![] bcast_S_S1600000 : (⟨S_, .i32⟩ : BufTy).Contents (Elt F) → (⟨S1600000, .i32⟩ : BufTy).Contents (Elt F)),
    binary main_v5 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v21 (broadcastInDim S1600000 ![] bcast_S_S1600000 : (⟨S_, .i32⟩ : BufTy).Contents (Elt F) → (⟨S1600000, .i32⟩ : BufTy).Contents (Elt F)),
    binary main_v5 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v5 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v18 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    unary main_v25 main_v26 (Host.negf : (⟨S1600000, .f32⟩ : BufTy).Contents (Elt F) → (⟨S1600000, .f32⟩ : BufTy).Contents (Elt F)),
    nullary main_c_4 (constantI S_ 32 0#32),
    unary main_c_4 main_v27 (broadcastInDim S1600000 ![] bcast_S_S1600000 : (⟨S_, .i32⟩ : BufTy).Contents (Elt F) → (⟨S1600000, .i32⟩ : BufTy).Contents (Elt F)),
    binary main_v7 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v29 (broadcastInDim S1600000 ![] bcast_S_S1600000 : (⟨S_, .i32⟩ : BufTy).Contents (Elt F) → (⟨S1600000, .i32⟩ : BufTy).Contents (Elt F)),
    binary main_v7 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v7 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v18 main_v32 main_v33 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v26 main_v33 main_v34 (mulf : (⟨S1600000, .f32⟩ : BufTy).Contents (Elt F) → (⟨S1600000, .f32⟩ : BufTy).Contents (Elt F) → (⟨S1600000, .f32⟩ : BufTy).Contents (Elt F)),
    binary main_v34 main_v9 main_v35 (mulf : (⟨S1600000, .f32⟩ : BufTy).Contents (Elt F) → (⟨S1600000, .f32⟩ : BufTy).Contents (Elt F) → (⟨S1600000, .f32⟩ : BufTy).Contents (Elt F)),
    unary main_v35 main_v36 (broadcastInDim S1600000x1 ![0] bcast_S1600000_S1600000x1_0 : (⟨S1600000, .f32⟩ : BufTy).Contents (Elt F) → (⟨S1600000x1, .f32⟩ : BufTy).Contents (Elt F)),
    nullary main_c_6 (constantI S_ 32 0#32),
    unary main_c_6 main_v37 (broadcastInDim S1600000 ![] bcast_S_S1600000 : (⟨S_, .i32⟩ : BufTy).Contents (Elt F) → (⟨S1600000, .i32⟩ : BufTy).Contents (Elt F)),
    binary main_v1 main_v37 main_v38 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v39 (broadcastInDim S1600000 ![] bcast_S_S1600000 : (⟨S_, .i32⟩ : BufTy).Contents (Elt F) → (⟨S1600000, .i32⟩ : BufTy).Contents (Elt F)),
    binary main_v1 main_v39 main_v40 (addi : (⟨S1600000, .i32⟩ : BufTy).Contents (Elt F) → (⟨S1600000, .i32⟩ : BufTy).Contents (Elt F) → (⟨S1600000, .i32⟩ : BufTy).Contents (Elt F)),
    ternary main_v38 main_v40 main_v1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v41 main_v42 (broadcastInDim S1600000x1 ![0] bcast_S1600000_S1600000x1_0 : (⟨S1600000, .i32⟩ : BufTy).Contents (Elt F) → (⟨S1600000x1, .i32⟩ : BufTy).Contents (Elt F)),
    binary main_arg0 main_v42 main_v43 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v36 main_v44 (broadcastInDim S1600000x128 ![0, 1] bcast_S1600000x1_S1600000x128_0_1 : (⟨S1600000x1, .f32⟩ : BufTy).Contents (Elt F) → (⟨S1600000x128, .f32⟩ : BufTy).Contents (Elt F)),
    binary main_v44 main_v43 main_v45 (mulf : (⟨S1600000x128, .f32⟩ : BufTy).Contents (Elt F) → (⟨S1600000x128, .f32⟩ : BufTy).Contents (Elt F) → (⟨S1600000x128, .f32⟩ : BufTy).Contents (Elt F)),
    nullary main_cst_8 (constant S_ .f32 0x00000000#32),
    unary main_cst_8 main_v46 (broadcastInDim S100000x128 ![] bcast_S_S100000x128 : (⟨S_, .f32⟩ : BufTy).Contents (Elt F) → (⟨S100000x128, .f32⟩ : BufTy).Contents (Elt F)),
    unary main_v3 main_v47 (broadcastInDim S1600000x1 ![0] bcast_S1600000_S1600000x1_0 : (⟨S1600000, .i32⟩ : BufTy).Contents (Elt F) → (⟨S1600000x1, .i32⟩ : BufTy).Contents (Elt F)),
    ternary main_v46 main_v47 main_v45 main_v48 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v35 main_v49 (broadcastInDim S1600000x1 ![0] bcast_S1600000_S1600000x1_0 : (⟨S1600000, .f32⟩ : BufTy).Contents (Elt F) → (⟨S1600000x1, .f32⟩ : BufTy).Contents (Elt F)),
    nullary main_c_9 (constantI S_ 32 0#32),
    unary main_c_9 main_v50 (broadcastInDim S1600000 ![] bcast_S_S1600000 : (⟨S_, .i32⟩ : BufTy).Contents (Elt F) → (⟨S1600000, .i32⟩ : BufTy).Contents (Elt F)),
    binary main_v1 main_v50 main_v51 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v52 (broadcastInDim S1600000 ![] bcast_S_S1600000 : (⟨S_, .i32⟩ : BufTy).Contents (Elt F) → (⟨S1600000, .i32⟩ : BufTy).Contents (Elt F)),
    binary main_v1 main_v52 main_v53 (addi : (⟨S1600000, .i32⟩ : BufTy).Contents (Elt F) → (⟨S1600000, .i32⟩ : BufTy).Contents (Elt F) → (⟨S1600000, .i32⟩ : BufTy).Contents (Elt F)),
    ternary main_v51 main_v53 main_v1 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v54 main_v55 (broadcastInDim S1600000x1 ![0] bcast_S1600000_S1600000x1_0 : (⟨S1600000, .i32⟩ : BufTy).Contents (Elt F) → (⟨S1600000x1, .i32⟩ : BufTy).Contents (Elt F)),
    binary main_v48 main_v55 main_v56 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v49 main_v57 (broadcastInDim S1600000x128 ![0, 1] bcast_S1600000x1_S1600000x128_0_1 : (⟨S1600000x1, .f32⟩ : BufTy).Contents (Elt F) → (⟨S1600000x128, .f32⟩ : BufTy).Contents (Elt F)),
    binary main_v57 main_v56 main_v58 (mulf : (⟨S1600000x128, .f32⟩ : BufTy).Contents (Elt F) → (⟨S1600000x128, .f32⟩ : BufTy).Contents (Elt F) → (⟨S1600000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v3 main_v60 (broadcastInDim S1600000x1 ![0] bcast_S1600000_S1600000x1_0 : (⟨S1600000, .i32⟩ : BufTy).Contents (Elt F) → (⟨S1600000x1, .i32⟩ : BufTy).Contents (Elt F)),
    ternary main_v59 main_v60 main_v58 main_v61 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_12 (constant S_ .f32 0x40000000#32),
    unary main_cst_12 main_v62 (broadcastInDim S100000x128 ![] bcast_S_S100000x128 : (⟨S_, .f32⟩ : BufTy).Contents (Elt F) → (⟨S100000x128, .f32⟩ : BufTy).Contents (Elt F)),
    binary main_v62 main_v61 main_v63 (mulf : (⟨S100000x128, .f32⟩ : BufTy).Contents (Elt F) → (⟨S100000x128, .f32⟩ : BufTy).Contents (Elt F) → (⟨S100000x128, .f32⟩ : BufTy).Contents (Elt F)),
    binary main_v63 main_arg0 main_v64 (subf : (⟨S100000x128, .f32⟩ : BufTy).Contents (Elt F) → (⟨S100000x128, .f32⟩ : BufTy).Contents (Elt F) → (⟨S100000x128, .f32⟩ : BufTy).Contents (Elt F)),
    unary main_arg3 main_v65 ((extractStridedSlice S1x128x64 ![0, 0, 0] · slices_S3x128x64_S1x128x64_0_0_0) : (⟨S3x128x64, .f32⟩ : BufTy).Contents (Elt F) → (⟨S1x128x64, .f32⟩ : BufTy).Contents (Elt F)),
    reshape main_v65 main_v66 rfl shapeCasts_S1x128x64_S128x64,
    binary main_arg0 main_v66 main_v67 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v68 ((extractStridedSlice S1x128x64 ![1, 0, 0] · slices_S3x128x64_S1x128x64_1_0_0) : (⟨S3x128x64, .f32⟩ : BufTy).Contents (Elt F) → (⟨S1x128x64, .f32⟩ : BufTy).Contents (Elt F)),
    reshape main_v68 main_v69 rfl shapeCasts_S1x128x64_S128x64,
    binary main_v48 main_v69 main_v70 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v67 main_v70 main_v71 (addf : (⟨S100000x64, .f32⟩ : BufTy).Contents (Elt F) → (⟨S100000x64, .f32⟩ : BufTy).Contents (Elt F) → (⟨S100000x64, .f32⟩ : BufTy).Contents (Elt F)),
    unary main_arg3 main_v72 ((extractStridedSlice S1x128x64 ![2, 0, 0] · slices_S3x128x64_S1x128x64_2_0_0) : (⟨S3x128x64, .f32⟩ : BufTy).Contents (Elt F) → (⟨S1x128x64, .f32⟩ : BufTy).Contents (Elt F)),
    reshape main_v72 main_v73 rfl shapeCasts_S1x128x64_S128x64,
    binary main_v64 main_v73 main_v74 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v71 main_v74 main_v75 (addf : (⟨S100000x64, .f32⟩ : BufTy).Contents (Elt F) → (⟨S100000x64, .f32⟩ : BufTy).Contents (Elt F) → (⟨S100000x64, .f32⟩ : BufTy).Contents (Elt F)),
    unary main_arg4 main_v76 (broadcastInDim S1x64 ![1] bcast_S64_S1x64_1 : (⟨S64, .f32⟩ : BufTy).Contents (Elt F) → (⟨S1x64, .f32⟩ : BufTy).Contents (Elt F)),
    unary main_v76 main_v77 (broadcastInDim S100000x64 ![0, 1] bcast_S1x64_S100000x64_0_1 : (⟨S1x64, .f32⟩ : BufTy).Contents (Elt F) → (⟨S100000x64, .f32⟩ : BufTy).Contents (Elt F)),
    binary main_v75 main_v77 main_v78 (addf : (⟨S100000x64, .f32⟩ : BufTy).Contents (Elt F) → (⟨S100000x64, .f32⟩ : BufTy).Contents (Elt F) → (⟨S100000x64, .f32⟩ : BufTy).Contents (Elt F)) ]

/-- The first layer's outlined rectifier: operations 97 … 99, over typed references. -/
abbrev opsAr : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v78) (TRef.of (T := ⟨S100000x64, .f32⟩) main_call1_v0) (TRef.of (T := ⟨S100000x64, .f32⟩) main_v79) maximumf ]

/-- The second layer before its rectifier: operations 100 … 149. -/
abbrev opsB1 : List (HloOp τ sig (Elt F)) :=
  [ unary main_v35 main_v80 (broadcastInDim S1600000x1 ![0] bcast_S1600000_S1600000x1_0 : (⟨S1600000, .f32⟩ : BufTy).Contents (Elt F) → (⟨S1600000x1, .f32⟩ : BufTy).Contents (Elt F)),
    nullary main_c_13 (constantI S_ 32 0#32),
    unary main_c_13 main_v81 (broadcastInDim S1600000 ![] bcast_S_S1600000 : (⟨S_, .i32⟩ : BufTy).Contents (Elt F) → (⟨S1600000, .i32⟩ : BufTy).Contents (Elt F)),
    binary main_v1 main_v81 main_v82 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v83 (broadcastInDim S1600000 ![] bcast_S_S1600000 : (⟨S_, .i32⟩ : BufTy).Contents (Elt F) → (⟨S1600000, .i32⟩ : BufTy).Contents (Elt F)),
    binary main_v1 main_v83 main_v84 (addi : (⟨S1600000, .i32⟩ : BufTy).Contents (Elt F) → (⟨S1600000, .i32⟩ : BufTy).Contents (Elt F) → (⟨S1600000, .i32⟩ : BufTy).Contents (Elt F)),
    ternary main_v82 main_v84 main_v1 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v85 main_v86 (broadcastInDim S1600000x1 ![0] bcast_S1600000_S1600000x1_0 : (⟨S1600000, .i32⟩ : BufTy).Contents (Elt F) → (⟨S1600000x1, .i32⟩ : BufTy).Contents (Elt F)),
    binary main_v79 main_v86 main_v87 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v80 main_v88 (broadcastInDim S1600000x64 ![0, 1] bcast_S1600000x1_S1600000x64_0_1 : (⟨S1600000x1, .f32⟩ : BufTy).Contents (Elt F) → (⟨S1600000x64, .f32⟩ : BufTy).Contents (Elt F)),
    binary main_v88 main_v87 main_v89 (mulf : (⟨S1600000x64, .f32⟩ : BufTy).Contents (Elt F) → (⟨S1600000x64, .f32⟩ : BufTy).Contents (Elt F) → (⟨S1600000x64, .f32⟩ : BufTy).Contents (Elt F)),
    nullary main_cst_15 (constant S_ .f32 0x00000000#32),
    unary main_cst_15 main_v90 (broadcastInDim S100000x64 ![] bcast_S_S100000x64 : (⟨S_, .f32⟩ : BufTy).Contents (Elt F) → (⟨S100000x64, .f32⟩ : BufTy).Contents (Elt F)),
    unary main_v3 main_v91 (broadcastInDim S1600000x1 ![0] bcast_S1600000_S1600000x1_0 : (⟨S1600000, .i32⟩ : BufTy).Contents (Elt F) → (⟨S1600000x1, .i32⟩ : BufTy).Contents (Elt F)),
    ternary main_v90 main_v91 main_v89 main_v92 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v35 main_v93 (broadcastInDim S1600000x1 ![0] bcast_S1600000_S1600000x1_0 : (⟨S1600000, .f32⟩ : BufTy).Contents (Elt F) → (⟨S1600000x1, .f32⟩ : BufTy).Contents (Elt F)),
    nullary main_c_16 (constantI S_ 32 0#32),
    unary main_c_16 main_v94 (broadcastInDim S1600000 ![] bcast_S_S1600000 : (⟨S_, .i32⟩ : BufTy).Contents (Elt F) → (⟨S1600000, .i32⟩ : BufTy).Contents (Elt F)),
    binary main_v1 main_v94 main_v95 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v96 (broadcastInDim S1600000 ![] bcast_S_S1600000 : (⟨S_, .i32⟩ : BufTy).Contents (Elt F) → (⟨S1600000, .i32⟩ : BufTy).Contents (Elt F)),
    binary main_v1 main_v96 main_v97 (addi : (⟨S1600000, .i32⟩ : BufTy).Contents (Elt F) → (⟨S1600000, .i32⟩ : BufTy).Contents (Elt F) → (⟨S1600000, .i32⟩ : BufTy).Contents (Elt F)),
    ternary main_v95 main_v97 main_v1 main_v98 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v98 main_v99 (broadcastInDim S1600000x1 ![0] bcast_S1600000_S1600000x1_0 : (⟨S1600000, .i32⟩ : BufTy).Contents (Elt F) → (⟨S1600000x1, .i32⟩ : BufTy).Contents (Elt F)),
    binary main_v92 main_v99 main_v100 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v93 main_v101 (broadcastInDim S1600000x64 ![0, 1] bcast_S1600000x1_S1600000x64_0_1 : (⟨S1600000x1, .f32⟩ : BufTy).Contents (Elt F) → (⟨S1600000x64, .f32⟩ : BufTy).Contents (Elt F)),
    binary main_v101 main_v100 main_v102 (mulf : (⟨S1600000x64, .f32⟩ : BufTy).Contents (Elt F) → (⟨S1600000x64, .f32⟩ : BufTy).Contents (Elt F) → (⟨S1600000x64, .f32⟩ : BufTy).Contents (Elt F)),
    nullary main_cst_18 (constant S_ .f32 0x00000000#32),
    unary main_cst_18 main_v103 (broadcastInDim S100000x64 ![] bcast_S_S100000x64 : (⟨S_, .f32⟩ : BufTy).Contents (Elt F) → (⟨S100000x64, .f32⟩ : BufTy).Contents (Elt F)),
    unary main_v3 main_v104 (broadcastInDim S1600000x1 ![0] bcast_S1600000_S1600000x1_0 : (⟨S1600000, .i32⟩ : BufTy).Contents (Elt F) → (⟨S1600000x1, .i32⟩ : BufTy).Contents (Elt F)),
    ternary main_v103 main_v104 main_v102 main_v105 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_19 (constant S_ .f32 0x40000000#32),
    unary main_cst_19 main_v106 (broadcastInDim S100000x64 ![] bcast_S_S100000x64 : (⟨S_, .f32⟩ : BufTy).Contents (Elt F) → (⟨S100000x64, .f32⟩ : BufTy).Contents (Elt F)),
    binary main_v106 main_v105 main_v107 (mulf : (⟨S100000x64, .f32⟩ : BufTy).Contents (Elt F) → (⟨S100000x64, .f32⟩ : BufTy).Contents (Elt F) → (⟨S100000x64, .f32⟩ : BufTy).Contents (Elt F)),
    binary main_v107 main_v79 main_v108 (subf : (⟨S100000x64, .f32⟩ : BufTy).Contents (Elt F) → (⟨S100000x64, .f32⟩ : BufTy).Contents (Elt F) → (⟨S100000x64, .f32⟩ : BufTy).Contents (Elt F)),
    unary main_arg5 main_v109 ((extractStridedSlice S1x64x128 ![0, 0, 0] · slices_S3x64x128_S1x64x128_0_0_0) : (⟨S3x64x128, .f32⟩ : BufTy).Contents (Elt F) → (⟨S1x64x128, .f32⟩ : BufTy).Contents (Elt F)),
    reshape main_v109 main_v110 rfl shapeCasts_S1x64x128_S64x128,
    binary main_v79 main_v110 main_v111 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg5 main_v112 ((extractStridedSlice S1x64x128 ![1, 0, 0] · slices_S3x64x128_S1x64x128_1_0_0) : (⟨S3x64x128, .f32⟩ : BufTy).Contents (Elt F) → (⟨S1x64x128, .f32⟩ : BufTy).Contents (Elt F)),
    reshape main_v112 main_v113 rfl shapeCasts_S1x64x128_S64x128,
    binary main_v92 main_v113 main_v114 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v111 main_v114 main_v115 (addf : (⟨S100000x128, .f32⟩ : BufTy).Contents (Elt F) → (⟨S100000x128, .f32⟩ : BufTy).Contents (Elt F) → (⟨S100000x128, .f32⟩ : BufTy).Contents (Elt F)),
    unary main_arg5 main_v116 ((extractStridedSlice S1x64x128 ![2, 0, 0] · slices_S3x64x128_S1x64x128_2_0_0) : (⟨S3x64x128, .f32⟩ : BufTy).Contents (Elt F) → (⟨S1x64x128, .f32⟩ : BufTy).Contents (Elt F)),
    reshape main_v116 main_v117 rfl shapeCasts_S1x64x128_S64x128,
    binary main_v108 main_v117 main_v118 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v115 main_v118 main_v119 (addf : (⟨S100000x128, .f32⟩ : BufTy).Contents (Elt F) → (⟨S100000x128, .f32⟩ : BufTy).Contents (Elt F) → (⟨S100000x128, .f32⟩ : BufTy).Contents (Elt F)),
    unary main_arg6 main_v120 (broadcastInDim S1x128 ![1] bcast_S128_S1x128_1 : (⟨S128, .f32⟩ : BufTy).Contents (Elt F) → (⟨S1x128, .f32⟩ : BufTy).Contents (Elt F)),
    unary main_v120 main_v121 (broadcastInDim S100000x128 ![0, 1] bcast_S1x128_S100000x128_0_1 : (⟨S1x128, .f32⟩ : BufTy).Contents (Elt F) → (⟨S100000x128, .f32⟩ : BufTy).Contents (Elt F)),
    binary main_v119 main_v121 main_v122 (addf : (⟨S100000x128, .f32⟩ : BufTy).Contents (Elt F) → (⟨S100000x128, .f32⟩ : BufTy).Contents (Elt F) → (⟨S100000x128, .f32⟩ : BufTy).Contents (Elt F)) ]

/-- The second layer's outlined rectifier: operations 150 … 152, over typed references. -/
abbrev opsBr : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v122) (TRef.of (T := ⟨S100000x128, .f32⟩) main_call2_v0) (TRef.of (T := ⟨S100000x128, .f32⟩) main_v123) maximumf ]

/-- The third layer: operations 153 … 202. -/
abbrev opsC : List (HloOp τ sig (Elt F)) :=
  [ unary main_v35 main_v124 (broadcastInDim S1600000x1 ![0] bcast_S1600000_S1600000x1_0 : (⟨S1600000, .f32⟩ : BufTy).Contents (Elt F) → (⟨S1600000x1, .f32⟩ : BufTy).Contents (Elt F)),
    nullary main_c_20 (constantI S_ 32 0#32),
    unary main_c_20 main_v125 (broadcastInDim S1600000 ![] bcast_S_S1600000 : (⟨S_, .i32⟩ : BufTy).Contents (Elt F) → (⟨S1600000, .i32⟩ : BufTy).Contents (Elt F)),
    binary main_v1 main_v125 main_v126 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v127 (broadcastInDim S1600000 ![] bcast_S_S1600000 : (⟨S_, .i32⟩ : BufTy).Contents (Elt F) → (⟨S1600000, .i32⟩ : BufTy).Contents (Elt F)),
    binary main_v1 main_v127 main_v128 (addi : (⟨S1600000, .i32⟩ : BufTy).Contents (Elt F) → (⟨S1600000, .i32⟩ : BufTy).Contents (Elt F) → (⟨S1600000, .i32⟩ : BufTy).Contents (Elt F)),
    ternary main_v126 main_v128 main_v1 main_v129 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v129 main_v130 (broadcastInDim S1600000x1 ![0] bcast_S1600000_S1600000x1_0 : (⟨S1600000, .i32⟩ : BufTy).Contents (Elt F) → (⟨S1600000x1, .i32⟩ : BufTy).Contents (Elt F)),
    binary main_v123 main_v130 main_v131 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v124 main_v132 (broadcastInDim S1600000x128 ![0, 1] bcast_S1600000x1_S1600000x128_0_1 : (⟨S1600000x1, .f32⟩ : BufTy).Contents (Elt F) → (⟨S1600000x128, .f32⟩ : BufTy).Contents (Elt F)),
    binary main_v132 main_v131 main_v133 (mulf : (⟨S1600000x128, .f32⟩ : BufTy).Contents (Elt F) → (⟨S1600000x128, .f32⟩ : BufTy).Contents (Elt F) → (⟨S1600000x128, .f32⟩ : BufTy).Contents (Elt F)),
    nullary main_cst_22 (constant S_ .f32 0x00000000#32),
    unary main_cst_22 main_v134 (broadcastInDim S100000x128 ![] bcast_S_S100000x128 : (⟨S_, .f32⟩ : BufTy).Contents (Elt F) → (⟨S100000x128, .f32⟩ : BufTy).Contents (Elt F)),
    unary main_v3 main_v135 (broadcastInDim S1600000x1 ![0] bcast_S1600000_S1600000x1_0 : (⟨S1600000, .i32⟩ : BufTy).Contents (Elt F) → (⟨S1600000x1, .i32⟩ : BufTy).Contents (Elt F)),
    ternary main_v134 main_v135 main_v133 main_v136 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v35 main_v137 (broadcastInDim S1600000x1 ![0] bcast_S1600000_S1600000x1_0 : (⟨S1600000, .f32⟩ : BufTy).Contents (Elt F) → (⟨S1600000x1, .f32⟩ : BufTy).Contents (Elt F)),
    nullary main_c_23 (constantI S_ 32 0#32),
    unary main_c_23 main_v138 (broadcastInDim S1600000 ![] bcast_S_S1600000 : (⟨S_, .i32⟩ : BufTy).Contents (Elt F) → (⟨S1600000, .i32⟩ : BufTy).Contents (Elt F)),
    binary main_v1 main_v138 main_v139 (cmpi .slt : (⟨S1600000, .i32⟩ : BufTy).Contents (Elt F) → (⟨S1600000, .i32⟩ : BufTy).Contents (Elt F) → (⟨S1600000, .i1⟩ : BufTy).Contents (Elt F)),
    nullary main_c_24 (constantI S_ 32 100000#32),
    unary main_c_24 main_v140 (broadcastInDim S1600000 ![] bcast_S_S1600000 : (⟨S_, .i32⟩ : BufTy).Contents (Elt F) → (⟨S1600000, .i32⟩ : BufTy).Contents (Elt F)),
    binary main_v1 main_v140 main_v141 (addi : (⟨S1600000, .i32⟩ : BufTy).Contents (Elt F) → (⟨S1600000, .i32⟩ : BufTy).Contents (Elt F) → (⟨S1600000, .i32⟩ : BufTy).Contents (Elt F)),
    ternary main_v139 main_v141 main_v1 main_v142 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v142 main_v143 (broadcastInDim S1600000x1 ![0] bcast_S1600000_S1600000x1_0 : (⟨S1600000, .i32⟩ : BufTy).Contents (Elt F) → (⟨S1600000x1, .i32⟩ : BufTy).Contents (Elt F)),
    binary main_v136 main_v143 main_v144 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v137 main_v145 (broadcastInDim S1600000x128 ![0, 1] bcast_S1600000x1_S1600000x128_0_1 : (⟨S1600000x1, .f32⟩ : BufTy).Contents (Elt F) → (⟨S1600000x128, .f32⟩ : BufTy).Contents (Elt F)),
    binary main_v145 main_v144 main_v146 (mulf : (⟨S1600000x128, .f32⟩ : BufTy).Contents (Elt F) → (⟨S1600000x128, .f32⟩ : BufTy).Contents (Elt F) → (⟨S1600000x128, .f32⟩ : BufTy).Contents (Elt F)),
    nullary main_cst_25 (constant S_ .f32 0x00000000#32),
    unary main_cst_25 main_v147 (broadcastInDim S100000x128 ![] bcast_S_S100000x128 : (⟨S_, .f32⟩ : BufTy).Contents (Elt F) → (⟨S100000x128, .f32⟩ : BufTy).Contents (Elt F)),
    unary main_v3 main_v148 (broadcastInDim S1600000x1 ![0] bcast_S1600000_S1600000x1_0 : (⟨S1600000, .i32⟩ : BufTy).Contents (Elt F) → (⟨S1600000x1, .i32⟩ : BufTy).Contents (Elt F)),
    ternary main_v147 main_v148 main_v146 main_v149 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_26 (constant S_ .f32 0x40000000#32),
    unary main_cst_26 main_v150 (broadcastInDim S100000x128 ![] bcast_S_S100000x128 : (⟨S_, .f32⟩ : BufTy).Contents (Elt F) → (⟨S100000x128, .f32⟩ : BufTy).Contents (Elt F)),
    binary main_v150 main_v149 main_v151 (mulf : (⟨S100000x128, .f32⟩ : BufTy).Contents (Elt F) → (⟨S100000x128, .f32⟩ : BufTy).Contents (Elt F) → (⟨S100000x128, .f32⟩ : BufTy).Contents (Elt F)),
    binary main_v151 main_v123 main_v152 (subf : (⟨S100000x128, .f32⟩ : BufTy).Contents (Elt F) → (⟨S100000x128, .f32⟩ : BufTy).Contents (Elt F) → (⟨S100000x128, .f32⟩ : BufTy).Contents (Elt F)),
    unary main_arg7 main_v153 ((extractStridedSlice S1x128x256 ![0, 0, 0] · slices_S3x128x256_S1x128x256_0_0_0) : (⟨S3x128x256, .f32⟩ : BufTy).Contents (Elt F) → (⟨S1x128x256, .f32⟩ : BufTy).Contents (Elt F)),
    reshape main_v153 main_v154 rfl shapeCasts_S1x128x256_S128x256,
    binary main_v123 main_v154 main_v155 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg7 main_v156 ((extractStridedSlice S1x128x256 ![1, 0, 0] · slices_S3x128x256_S1x128x256_1_0_0) : (⟨S3x128x256, .f32⟩ : BufTy).Contents (Elt F) → (⟨S1x128x256, .f32⟩ : BufTy).Contents (Elt F)),
    reshape main_v156 main_v157 rfl shapeCasts_S1x128x256_S128x256,
    binary main_v136 main_v157 main_v158 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v155 main_v158 main_v159 (addf : (⟨S100000x256, .f32⟩ : BufTy).Contents (Elt F) → (⟨S100000x256, .f32⟩ : BufTy).Contents (Elt F) → (⟨S100000x256, .f32⟩ : BufTy).Contents (Elt F)),
    unary main_arg7 main_v160 ((extractStridedSlice S1x128x256 ![2, 0, 0] · slices_S3x128x256_S1x128x256_2_0_0) : (⟨S3x128x256, .f32⟩ : BufTy).Contents (Elt F) → (⟨S1x128x256, .f32⟩ : BufTy).Contents (Elt F)),
    reshape main_v160 main_v161 rfl shapeCasts_S1x128x256_S128x256,
    binary main_v152 main_v161 main_v162 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v159 main_v162 main_v163 (addf : (⟨S100000x256, .f32⟩ : BufTy).Contents (Elt F) → (⟨S100000x256, .f32⟩ : BufTy).Contents (Elt F) → (⟨S100000x256, .f32⟩ : BufTy).Contents (Elt F)),
    unary main_arg8 main_v164 (broadcastInDim S1x256 ![1] bcast_S256_S1x256_1 : (⟨S256, .f32⟩ : BufTy).Contents (Elt F) → (⟨S1x256, .f32⟩ : BufTy).Contents (Elt F)),
    unary main_v164 main_v165 (broadcastInDim S100000x256 ![0, 1] bcast_S1x256_S100000x256_0_1 : (⟨S1x256, .f32⟩ : BufTy).Contents (Elt F) → (⟨S100000x256, .f32⟩ : BufTy).Contents (Elt F)),
    binary main_v163 main_v165 main_v166 (addf : (⟨S100000x256, .f32⟩ : BufTy).Contents (Elt F) → (⟨S100000x256, .f32⟩ : BufTy).Contents (Elt F) → (⟨S100000x256, .f32⟩ : BufTy).Contents (Elt F)) ]

/-- The whole program's operations. -/
abbrev ops : List (HloOp τ sig (Elt F)) := opsA1 ++ (opsAw ++ (opsA2 ++ (opsAr ++ (opsB1 ++ (opsBr ++ opsC)))))

set_option maxRecDepth 8192 in
theorem opsA1_sub : (opsA1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub ..⟩
set_option maxRecDepth 8192 in
theorem opsAw_sub : (opsAw : List (HloOp τ sig (Elt F))).Forall fun op => op.bufs ⊆ tcRefs τ sig :=
  ⟨unary_bufs_sub .., unary_bufs_sub .., ternary_bufs_sub ..⟩
set_option maxRecDepth 8192 in
theorem opsA2_sub : (opsA2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub ..⟩
set_option maxRecDepth 8192 in
theorem opsAr_sub : (opsAr : List (HloOp τ sig (Elt F))).Forall fun op => op.bufs ⊆ tcRefs τ sig :=
  ⟨nullary_bufs_sub .., unary_bufs_sub .., binary_bufs_sub ..⟩
set_option maxRecDepth 8192 in
theorem opsB1_sub : (opsB1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub ..⟩
set_option maxRecDepth 8192 in
theorem opsBr_sub : (opsBr : List (HloOp τ sig (Elt F))).Forall fun op => op.bufs ⊆ tcRefs τ sig :=
  ⟨nullary_bufs_sub .., unary_bufs_sub .., binary_bufs_sub ..⟩
set_option maxRecDepth 8192 in
theorem opsC_sub : (opsC : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub ..⟩

theorem ops_sub : (ops : List (HloOp τ sig (Elt F))).Forall fun op => op.bufs ⊆ tcRefs τ sig :=
  List.forall_append.mpr ⟨opsA1_sub, List.forall_append.mpr ⟨opsAw_sub, List.forall_append.mpr ⟨opsA2_sub,
    List.forall_append.mpr ⟨opsAr_sub, List.forall_append.mpr ⟨opsB1_sub, List.forall_append.mpr ⟨opsBr_sub, opsC_sub⟩⟩⟩⟩⟩⟩

/-- Running two stretches one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

theorem after_ops (V : Valuation τ sig (Elt F)) :
    after ops V = after opsC (after opsBr (after opsB1 (after opsAr (after opsA2 (after opsAw (after opsA1 V)))))) := by
  unfold ops
  simp only [after_append]

end Cert.ReferenceIdeal.RefRun

end
-- ==== Proof.RefRun.lean ====
/-
  The reference program's run.

  The reference is a straight line of host operations, so every weakly fair execution of it terminates, and each buffer
  ends at the fold of the operations' results over the launch contents. The fold is stated stretch by stretch, each stretch's
  operations over what the stretches before it leave.
-/
import proofs.«180513_j10187662426540_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The printed program is the sequence of those operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA1_fresh : ∀ op ∈ (opsA1 : List (HloOp τ sig (Elt F))), op.fresh = ∅ := by
  intro _ h; (repeat (cases h with | head => rfl | tail _ h => ?_)); exact nomatch h
set_option maxRecDepth 8192 in
theorem opsAw_fresh : ∀ op ∈ (opsAw : List (HloOp τ sig (Elt F))), op.fresh = ∅ := by
  intro _ h; (repeat (cases h with | head => rfl | tail _ h => ?_)); exact nomatch h
set_option maxRecDepth 8192 in
theorem opsA2_fresh : ∀ op ∈ (opsA2 : List (HloOp τ sig (Elt F))), op.fresh = ∅ := by
  intro _ h; (repeat (cases h with | head => rfl | tail _ h => ?_)); exact nomatch h
set_option maxRecDepth 8192 in
theorem opsAr_fresh : ∀ op ∈ (opsAr : List (HloOp τ sig (Elt F))), op.fresh = ∅ := by
  intro _ h; (repeat (cases h with | head => rfl | tail _ h => ?_)); exact nomatch h
set_option maxRecDepth 8192 in
theorem opsB1_fresh : ∀ op ∈ (opsB1 : List (HloOp τ sig (Elt F))), op.fresh = ∅ := by
  intro _ h; (repeat (cases h with | head => rfl | tail _ h => ?_)); exact nomatch h
set_option maxRecDepth 8192 in
theorem opsBr_fresh : ∀ op ∈ (opsBr : List (HloOp τ sig (Elt F))), op.fresh = ∅ := by
  intro _ h; (repeat (cases h with | head => rfl | tail _ h => ?_)); exact nomatch h
set_option maxRecDepth 8192 in
theorem opsC_fresh : ∀ op ∈ (opsC : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h
  · exact opsA1_fresh op h
  rcases List.mem_append.mp h with h | h
  · exact opsAw_fresh op h
  rcases List.mem_append.mp h with h | h
  · exact opsA2_fresh op h
  rcases List.mem_append.mp h with h | h
  · exact opsAr_fresh op h
  rcases List.mem_append.mp h with h | h
  · exact opsB1_fresh op h
  rcases List.mem_append.mp h with h | h
  · exact opsBr_fresh op h
  · exact opsC_fresh op h

/-- Every weakly fair execution of the reference terminates, nothing faulting, with each buffer at the fold of the seven
    stretches over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after opsC (after opsBr (after opsB1 (after opsAr (after opsA2 (after opsAw (after opsA1 (launchContents m d))))))) (Proc.devRef .tc b) :=
  (θ_run defs _ _).mono (fun _ h d b => (h d b).trans (congrFun (after_ops _) _))
    (run_seq scopedRefs_eq scopedSems_eq defs main (fun _ => ops) main_eq (fun _ => ops_sub) m ρ (fun _ => ops_fresh))

end Cert.ReferenceIdeal.RefRun

end
-- ==== Proof.RefVal.lean ====
/-
  What the reference computes, stretch by stretch.

  Read from the launch contents, each stretch of the reference's operations leaves the buffers the later stretches read
  at the values the one-operation-at-a-time reading of the program (`val_main_v…`) gives them as functions of the
  arguments. A stretch is unfolded only down to the buffers the stretches before it wrote, which are then replaced by
  their names; the three outlined functions' stretches, whose operations carry typed references, are read from arbitrary
  contents first. At the end the result buffer holds `val_main_v166` of the arguments.
-/
import proofs.«180513_j10187662426540_1_alg».proof.Proof.RefOps
import proofs.«180513_j10187662426540_1_alg».proof.Proof.ReadP

set_option maxRecDepth 16384

noncomputable section

namespace Cert.Cheb.RV

open Cert.ReferenceIdeal Cert.ReferenceIdeal.Gen Cert.ReferenceIdeal.RefRun Cert.ReferenceIdeal.ReadP
open Idealize.ShloMosaic Idealize.ShloMosaic.TcCoe Idealize.SL.Sem Idealize.ShloMosaic.StableHlo

variable (m : (ℓ : Loc nD τ sig) → Buf (Elt Ideal) ℓ) (c : Dev nD)

/-- The arguments, as the arrays they are. -/
abbrev X0 : S100000x128.Idx → EReal := m ((c.tc : Thread nD τ).loc main_arg0)
abbrev X1 : S2x1600000.Idx → BitVec 32 := m ((c.tc : Thread nD τ).loc main_arg1)
abbrev X3 : S3x128x64.Idx → EReal := m ((c.tc : Thread nD τ).loc main_arg3)
abbrev X4 : S64.Idx → EReal := m ((c.tc : Thread nD τ).loc main_arg4)
abbrev X5 : S3x64x128.Idx → EReal := m ((c.tc : Thread nD τ).loc main_arg5)
abbrev X6 : S128.Idx → EReal := m ((c.tc : Thread nD τ).loc main_arg6)
abbrev X7 : S3x128x256.Idx → EReal := m ((c.tc : Thread nD τ).loc main_arg7)
abbrev X8 : S256.Idx → EReal := m ((c.tc : Thread nD τ).loc main_arg8)

/-- The contents after each stretch. -/
def U1 : Valuation τ sig (Elt Ideal) := after opsA1 (launchContents m c)
def U2 : Valuation τ sig (Elt Ideal) := after opsAw (U1 m c)
def U3 : Valuation τ sig (Elt Ideal) := after opsA2 (U2 m c)
def U4 : Valuation τ sig (Elt Ideal) := after opsAr (U3 m c)
def U5 : Valuation τ sig (Elt Ideal) := after opsB1 (U4 m c)
def U6 : Valuation τ sig (Elt Ideal) := after opsBr (U5 m c)
def U7 : Valuation τ sig (Elt Ideal) := after opsC (U6 m c)

/-! ## The first stretch: from the launch contents -/

attribute [local irreducible] Host.gather Host.scatterAdd Host.rsqrt Ideal.matmul in
theorem L1_v1 : U1 m c (Proc.devRef .tc main_v1) = val_main_v1 (F := Ideal) (X1 m c) := by
  show after opsA1 (launchContents m c) (Proc.devRef .tc main_v1) = _
  after_results_simp <;> rfl

attribute [local irreducible] Host.gather Host.scatterAdd Host.rsqrt Ideal.matmul in
theorem L1_v3 : U1 m c (Proc.devRef .tc main_v3) = val_main_v3 (F := Ideal) (X1 m c) := by
  show after opsA1 (launchContents m c) (Proc.devRef .tc main_v3) = _
  after_results_simp <;> rfl

attribute [local irreducible] Host.gather Host.scatterAdd Host.rsqrt Ideal.matmul in
theorem L1_v5 : U1 m c (Proc.devRef .tc main_v5) = val_main_v5 (F := Ideal) (X1 m c) := by
  show after opsA1 (launchContents m c) (Proc.devRef .tc main_v5) = _
  after_results_simp <;> rfl

attribute [local irreducible] Host.gather Host.scatterAdd Host.rsqrt Ideal.matmul in
theorem L1_v7 : U1 m c (Proc.devRef .tc main_v7) = val_main_v7 (F := Ideal) (X1 m c) := by
  show after opsA1 (launchContents m c) (Proc.devRef .tc main_v7) = _
  after_results_simp <;> rfl

attribute [local irreducible] Host.gather Host.scatterAdd Host.rsqrt Ideal.matmul in
theorem L1_v9 : U1 m c (Proc.devRef .tc main_v9) = val_main_v9 (F := Ideal) (X1 m c) := by
  show after opsA1 (launchContents m c) (Proc.devRef .tc main_v9) = _
  after_results_simp <;> rfl

attribute [local irreducible] Host.gather Host.scatterAdd Host.rsqrt Ideal.matmul in
theorem L1_v14 : U1 m c (Proc.devRef .tc main_v14) = val_main_v14 (F := Ideal) (X1 m c) := by
  show after opsA1 (launchContents m c) (Proc.devRef .tc main_v14) = _
  after_results_simp <;> rfl

attribute [local irreducible] Host.gather Host.scatterAdd Host.rsqrt Ideal.matmul in
theorem L1_v17 : U1 m c (Proc.devRef .tc main_v17) = val_main_v17 (F := Ideal) (X1 m c) := by
  show after opsA1 (launchContents m c) (Proc.devRef .tc main_v17) = _
  after_results_simp <;> rfl

attribute [local irreducible] Host.gather Host.scatterAdd Host.rsqrt Ideal.matmul in
theorem L1_cst_2 : U1 m c (Proc.devRef .tc main_cst_2) = val_main_cst_2 (F := Ideal) := by
  show after opsA1 (launchContents m c) (Proc.devRef .tc main_cst_2) = _
  after_results_simp <;> rfl

attribute [local irreducible] Host.gather Host.scatterAdd Host.rsqrt Ideal.matmul in
theorem L1_arg0 : U1 m c (Proc.devRef .tc main_arg0) = X0 m c := by
  show after opsA1 (launchContents m c) (Proc.devRef .tc main_arg0) = _
  after_results_simp <;> rfl

attribute [local irreducible] Host.gather Host.scatterAdd Host.rsqrt Ideal.matmul in
theorem L1_arg3 : U1 m c (Proc.devRef .tc main_arg3) = X3 m c := by
  show after opsA1 (launchContents m c) (Proc.devRef .tc main_arg3) = _
  after_results_simp <;> rfl

attribute [local irreducible] Host.gather Host.scatterAdd Host.rsqrt Ideal.matmul in
theorem L1_arg4 : U1 m c (Proc.devRef .tc main_arg4) = X4 m c := by
  show after opsA1 (launchContents m c) (Proc.devRef .tc main_arg4) = _
  after_results_simp <;> rfl

attribute [local irreducible] Host.gather Host.scatterAdd Host.rsqrt Ideal.matmul in
theorem L1_arg5 : U1 m c (Proc.devRef .tc main_arg5) = X5 m c := by
  show after opsA1 (launchContents m c) (Proc.devRef .tc main_arg5) = _
  after_results_simp <;> rfl

attribute [local irreducible] Host.gather Host.scatterAdd Host.rsqrt Ideal.matmul in
theorem L1_arg6 : U1 m c (Proc.devRef .tc main_arg6) = X6 m c := by
  show after opsA1 (launchContents m c) (Proc.devRef .tc main_arg6) = _
  after_results_simp <;> rfl

attribute [local irreducible] Host.gather Host.scatterAdd Host.rsqrt Ideal.matmul in
theorem L1_arg7 : U1 m c (Proc.devRef .tc main_arg7) = X7 m c := by
  show after opsA1 (launchContents m c) (Proc.devRef .tc main_arg7) = _
  after_results_simp <;> rfl

attribute [local irreducible] Host.gather Host.scatterAdd Host.rsqrt Ideal.matmul in
theorem L1_arg8 : U1 m c (Proc.devRef .tc main_arg8) = X8 m c := by
  show after opsA1 (launchContents m c) (Proc.devRef .tc main_arg8) = _
  after_results_simp <;> rfl

/-! ## The outlined `where` -/

theorem where_v18 (V : Valuation τ sig (Elt Ideal)) :
    after opsAw V (Proc.devRef .tc main_v18)
      = select (V (Proc.devRef .tc main_v14)) (V (Proc.devRef .tc main_v17))
          (broadcastInDim S100000 ![] bcast_S_S100000 (id (V (Proc.devRef .tc main_cst_2)))) := by
  simp only [after_cons, after_nil]; rfl

theorem where_keep_v1 (V : Valuation τ sig (Elt Ideal)) :
    after opsAw V (Proc.devRef .tc main_v1) = V (Proc.devRef .tc main_v1) := by
  simp only [after_cons, after_nil]; rfl

theorem where_keep_v3 (V : Valuation τ sig (Elt Ideal)) :
    after opsAw V (Proc.devRef .tc main_v3) = V (Proc.devRef .tc main_v3) := by
  simp only [after_cons, after_nil]; rfl

theorem where_keep_v5 (V : Valuation τ sig (Elt Ideal)) :
    after opsAw V (Proc.devRef .tc main_v5) = V (Proc.devRef .tc main_v5) := by
  simp only [after_cons, after_nil]; rfl

theorem where_keep_v7 (V : Valuation τ sig (Elt Ideal)) :
    after opsAw V (Proc.devRef .tc main_v7) = V (Proc.devRef .tc main_v7) := by
  simp only [after_cons, after_nil]; rfl

theorem where_keep_v9 (V : Valuation τ sig (Elt Ideal)) :
    after opsAw V (Proc.devRef .tc main_v9) = V (Proc.devRef .tc main_v9) := by
  simp only [after_cons, after_nil]; rfl

theorem where_keep_arg0 (V : Valuation τ sig (Elt Ideal)) :
    after opsAw V (Proc.devRef .tc main_arg0) = V (Proc.devRef .tc main_arg0) := by
  simp only [after_cons, after_nil]; rfl

theorem where_keep_arg3 (V : Valuation τ sig (Elt Ideal)) :
    after opsAw V (Proc.devRef .tc main_arg3) = V (Proc.devRef .tc main_arg3) := by
  simp only [after_cons, after_nil]; rfl

theorem where_keep_arg4 (V : Valuation τ sig (Elt Ideal)) :
    after opsAw V (Proc.devRef .tc main_arg4) = V (Proc.devRef .tc main_arg4) := by
  simp only [after_cons, after_nil]; rfl

theorem where_keep_arg5 (V : Valuation τ sig (Elt Ideal)) :
    after opsAw V (Proc.devRef .tc main_arg5) = V (Proc.devRef .tc main_arg5) := by
  simp only [after_cons, after_nil]; rfl

theorem where_keep_arg6 (V : Valuation τ sig (Elt Ideal)) :
    after opsAw V (Proc.devRef .tc main_arg6) = V (Proc.devRef .tc main_arg6) := by
  simp only [after_cons, after_nil]; rfl

theorem where_keep_arg7 (V : Valuation τ sig (Elt Ideal)) :
    after opsAw V (Proc.devRef .tc main_arg7) = V (Proc.devRef .tc main_arg7) := by
  simp only [after_cons, after_nil]; rfl

theorem where_keep_arg8 (V : Valuation τ sig (Elt Ideal)) :
    after opsAw V (Proc.devRef .tc main_arg8) = V (Proc.devRef .tc main_arg8) := by
  simp only [after_cons, after_nil]; rfl

theorem L2_v18 : U2 m c (Proc.devRef .tc main_v18) = val_main_v18 (F := Ideal) (X1 m c) := by
  refine (where_v18 (U1 m c)).trans ?_
  rw [L1_v14, L1_v17, L1_cst_2]
  rfl

theorem L2_v1 : U2 m c (Proc.devRef .tc main_v1) = val_main_v1 (F := Ideal) (X1 m c) :=
  (where_keep_v1 (U1 m c)).trans (L1_v1 m c)

theorem L2_v3 : U2 m c (Proc.devRef .tc main_v3) = val_main_v3 (F := Ideal) (X1 m c) :=
  (where_keep_v3 (U1 m c)).trans (L1_v3 m c)

theorem L2_v5 : U2 m c (Proc.devRef .tc main_v5) = val_main_v5 (F := Ideal) (X1 m c) :=
  (where_keep_v5 (U1 m c)).trans (L1_v5 m c)

theorem L2_v7 : U2 m c (Proc.devRef .tc main_v7) = val_main_v7 (F := Ideal) (X1 m c) :=
  (where_keep_v7 (U1 m c)).trans (L1_v7 m c)

theorem L2_v9 : U2 m c (Proc.devRef .tc main_v9) = val_main_v9 (F := Ideal) (X1 m c) :=
  (where_keep_v9 (U1 m c)).trans (L1_v9 m c)

theorem L2_arg0 : U2 m c (Proc.devRef .tc main_arg0) = X0 m c :=
  (where_keep_arg0 (U1 m c)).trans (L1_arg0 m c)

theorem L2_arg3 : U2 m c (Proc.devRef .tc main_arg3) = X3 m c :=
  (where_keep_arg3 (U1 m c)).trans (L1_arg3 m c)

theorem L2_arg4 : U2 m c (Proc.devRef .tc main_arg4) = X4 m c :=
  (where_keep_arg4 (U1 m c)).trans (L1_arg4 m c)

theorem L2_arg5 : U2 m c (Proc.devRef .tc main_arg5) = X5 m c :=
  (where_keep_arg5 (U1 m c)).trans (L1_arg5 m c)

theorem L2_arg6 : U2 m c (Proc.devRef .tc main_arg6) = X6 m c :=
  (where_keep_arg6 (U1 m c)).trans (L1_arg6 m c)

theorem L2_arg7 : U2 m c (Proc.devRef .tc main_arg7) = X7 m c :=
  (where_keep_arg7 (U1 m c)).trans (L1_arg7 m c)

theorem L2_arg8 : U2 m c (Proc.devRef .tc main_arg8) = X8 m c :=
  (where_keep_arg8 (U1 m c)).trans (L1_arg8 m c)

/-! ## The edge weights and the first layer before its rectifier -/

attribute [local irreducible] Host.gather Host.scatterAdd Host.rsqrt Ideal.matmul in
set_option maxHeartbeats 1000000 in
theorem L3_v35 : U3 m c (Proc.devRef .tc main_v35) = val_main_v35 (F := Ideal) (X1 m c) := by
  show after opsA2 (U2 m c) (Proc.devRef .tc main_v35) = _
  after_results_simp
  rw [L2_v18, L2_v5, L2_v7, L2_v9]
  rfl

attribute [local irreducible] Host.gather Host.scatterAdd Host.rsqrt Ideal.matmul in
set_option maxHeartbeats 1000000 in
theorem L3_v78 : U3 m c (Proc.devRef .tc main_v78) = val_main_v78 (F := Ideal) (X0 m c) (X1 m c) (X3 m c) (X4 m c) := by
  show after opsA2 (U2 m c) (Proc.devRef .tc main_v78) = _
  after_results_simp
  rw [L2_v18, L2_v5, L2_v7, L2_v9, L2_v1, L2_v3, L2_arg0, L2_arg3, L2_arg4]
  rfl

theorem L3_v1 : U3 m c (Proc.devRef .tc main_v1) = val_main_v1 (F := Ideal) (X1 m c) := by
  show after opsA2 (U2 m c) (Proc.devRef .tc main_v1) = _
  after_results_simp
  exact L2_v1 m c

theorem L3_v3 : U3 m c (Proc.devRef .tc main_v3) = val_main_v3 (F := Ideal) (X1 m c) := by
  show after opsA2 (U2 m c) (Proc.devRef .tc main_v3) = _
  after_results_simp
  exact L2_v3 m c

theorem L3_arg5 : U3 m c (Proc.devRef .tc main_arg5) = X5 m c := by
  show after opsA2 (U2 m c) (Proc.devRef .tc main_arg5) = _
  after_results_simp
  exact L2_arg5 m c

theorem L3_arg6 : U3 m c (Proc.devRef .tc main_arg6) = X6 m c := by
  show after opsA2 (U2 m c) (Proc.devRef .tc main_arg6) = _
  after_results_simp
  exact L2_arg6 m c

theorem L3_arg7 : U3 m c (Proc.devRef .tc main_arg7) = X7 m c := by
  show after opsA2 (U2 m c) (Proc.devRef .tc main_arg7) = _
  after_results_simp
  exact L2_arg7 m c

theorem L3_arg8 : U3 m c (Proc.devRef .tc main_arg8) = X8 m c := by
  show after opsA2 (U2 m c) (Proc.devRef .tc main_arg8) = _
  after_results_simp
  exact L2_arg8 m c

/-! ## The first rectifier -/

theorem relu1_v79 (V : Valuation τ sig (Elt Ideal)) :
    after opsAr V (Proc.devRef .tc main_v79)
      = (maximumf (F := Ideal) (V (Proc.devRef .tc main_v78) : S100000x64.Idx → EReal)
          (broadcastInDim S100000x64 ![] bcast_S_S100000x64 (constant (F := Ideal) S_ .f32 0x00000000#32)) : S100000x64.Idx → EReal) := by
  simp only [after_cons, after_nil]; rfl

theorem relu1_keep_v35 (V : Valuation τ sig (Elt Ideal)) :
    after opsAr V (Proc.devRef .tc main_v35) = V (Proc.devRef .tc main_v35) := by
  simp only [after_cons, after_nil]; rfl

theorem relu1_keep_v1 (V : Valuation τ sig (Elt Ideal)) :
    after opsAr V (Proc.devRef .tc main_v1) = V (Proc.devRef .tc main_v1) := by
  simp only [after_cons, after_nil]; rfl

theorem relu1_keep_v3 (V : Valuation τ sig (Elt Ideal)) :
    after opsAr V (Proc.devRef .tc main_v3) = V (Proc.devRef .tc main_v3) := by
  simp only [after_cons, after_nil]; rfl

theorem relu1_keep_arg5 (V : Valuation τ sig (Elt Ideal)) :
    after opsAr V (Proc.devRef .tc main_arg5) = V (Proc.devRef .tc main_arg5) := by
  simp only [after_cons, after_nil]; rfl

theorem relu1_keep_arg6 (V : Valuation τ sig (Elt Ideal)) :
    after opsAr V (Proc.devRef .tc main_arg6) = V (Proc.devRef .tc main_arg6) := by
  simp only [after_cons, after_nil]; rfl

theorem relu1_keep_arg7 (V : Valuation τ sig (Elt Ideal)) :
    after opsAr V (Proc.devRef .tc main_arg7) = V (Proc.devRef .tc main_arg7) := by
  simp only [after_cons, after_nil]; rfl

theorem relu1_keep_arg8 (V : Valuation τ sig (Elt Ideal)) :
    after opsAr V (Proc.devRef .tc main_arg8) = V (Proc.devRef .tc main_arg8) := by
  simp only [after_cons, after_nil]; rfl

theorem L4_v79 : U4 m c (Proc.devRef .tc main_v79) = val_main_v79 (F := Ideal) (X0 m c) (X1 m c) (X3 m c) (X4 m c) := by
  refine (relu1_v79 (U3 m c)).trans ?_
  rw [L3_v78]
  rfl

theorem L4_v35 : U4 m c (Proc.devRef .tc main_v35) = val_main_v35 (F := Ideal) (X1 m c) :=
  (relu1_keep_v35 (U3 m c)).trans (L3_v35 m c)

theorem L4_v1 : U4 m c (Proc.devRef .tc main_v1) = val_main_v1 (F := Ideal) (X1 m c) :=
  (relu1_keep_v1 (U3 m c)).trans (L3_v1 m c)

theorem L4_v3 : U4 m c (Proc.devRef .tc main_v3) = val_main_v3 (F := Ideal) (X1 m c) :=
  (relu1_keep_v3 (U3 m c)).trans (L3_v3 m c)

theorem L4_arg5 : U4 m c (Proc.devRef .tc main_arg5) = X5 m c :=
  (relu1_keep_arg5 (U3 m c)).trans (L3_arg5 m c)

theorem L4_arg6 : U4 m c (Proc.devRef .tc main_arg6) = X6 m c :=
  (relu1_keep_arg6 (U3 m c)).trans (L3_arg6 m c)

theorem L4_arg7 : U4 m c (Proc.devRef .tc main_arg7) = X7 m c :=
  (relu1_keep_arg7 (U3 m c)).trans (L3_arg7 m c)

theorem L4_arg8 : U4 m c (Proc.devRef .tc main_arg8) = X8 m c :=
  (relu1_keep_arg8 (U3 m c)).trans (L3_arg8 m c)

/-! ## The second layer before its rectifier -/

attribute [local irreducible] Host.gather Host.scatterAdd Host.rsqrt Ideal.matmul in
set_option maxHeartbeats 1000000 in
theorem L5_v122 : U5 m c (Proc.devRef .tc main_v122) = val_main_v122 (F := Ideal) (X0 m c) (X1 m c) (X3 m c) (X4 m c) (X5 m c) (X6 m c) := by
  show after opsB1 (U4 m c) (Proc.devRef .tc main_v122) = _
  after_results_simp
  rw [L4_v79, L4_v35, L4_v1, L4_v3, L4_arg5, L4_arg6]
  rfl

theorem L5_v35 : U5 m c (Proc.devRef .tc main_v35) = val_main_v35 (F := Ideal) (X1 m c) := by
  show after opsB1 (U4 m c) (Proc.devRef .tc main_v35) = _
  after_results_simp
  exact L4_v35 m c

theorem L5_v1 : U5 m c (Proc.devRef .tc main_v1) = val_main_v1 (F := Ideal) (X1 m c) := by
  show after opsB1 (U4 m c) (Proc.devRef .tc main_v1) = _
  after_results_simp
  exact L4_v1 m c

theorem L5_v3 : U5 m c (Proc.devRef .tc main_v3) = val_main_v3 (F := Ideal) (X1 m c) := by
  show after opsB1 (U4 m c) (Proc.devRef .tc main_v3) = _
  after_results_simp
  exact L4_v3 m c

theorem L5_arg7 : U5 m c (Proc.devRef .tc main_arg7) = X7 m c := by
  show after opsB1 (U4 m c) (Proc.devRef .tc main_arg7) = _
  after_results_simp
  exact L4_arg7 m c

theorem L5_arg8 : U5 m c (Proc.devRef .tc main_arg8) = X8 m c := by
  show after opsB1 (U4 m c) (Proc.devRef .tc main_arg8) = _
  after_results_simp
  exact L4_arg8 m c

/-! ## The second rectifier -/

theorem relu2_v123 (V : Valuation τ sig (Elt Ideal)) :
    after opsBr V (Proc.devRef .tc main_v123)
      = (maximumf (F := Ideal) (V (Proc.devRef .tc main_v122) : S100000x128.Idx → EReal)
          (broadcastInDim S100000x128 ![] bcast_S_S100000x128 (constant (F := Ideal) S_ .f32 0x00000000#32)) : S100000x128.Idx → EReal) := by
  simp only [after_cons, after_nil]; rfl

theorem relu2_keep_v35 (V : Valuation τ sig (Elt Ideal)) :
    after opsBr V (Proc.devRef .tc main_v35) = V (Proc.devRef .tc main_v35) := by
  simp only [after_cons, after_nil]; rfl

theorem relu2_keep_v1 (V : Valuation τ sig (Elt Ideal)) :
    after opsBr V (Proc.devRef .tc main_v1) = V (Proc.devRef .tc main_v1) := by
  simp only [after_cons, after_nil]; rfl

theorem relu2_keep_v3 (V : Valuation τ sig (Elt Ideal)) :
    after opsBr V (Proc.devRef .tc main_v3) = V (Proc.devRef .tc main_v3) := by
  simp only [after_cons, after_nil]; rfl

theorem relu2_keep_arg7 (V : Valuation τ sig (Elt Ideal)) :
    after opsBr V (Proc.devRef .tc main_arg7) = V (Proc.devRef .tc main_arg7) := by
  simp only [after_cons, after_nil]; rfl

theorem relu2_keep_arg8 (V : Valuation τ sig (Elt Ideal)) :
    after opsBr V (Proc.devRef .tc main_arg8) = V (Proc.devRef .tc main_arg8) := by
  simp only [after_cons, after_nil]; rfl

theorem L6_v123 : U6 m c (Proc.devRef .tc main_v123) = val_main_v123 (F := Ideal) (X0 m c) (X1 m c) (X3 m c) (X4 m c) (X5 m c) (X6 m c) := by
  refine (relu2_v123 (U5 m c)).trans ?_
  rw [L5_v122]
  rfl

theorem L6_v35 : U6 m c (Proc.devRef .tc main_v35) = val_main_v35 (F := Ideal) (X1 m c) :=
  (relu2_keep_v35 (U5 m c)).trans (L5_v35 m c)

theorem L6_v1 : U6 m c (Proc.devRef .tc main_v1) = val_main_v1 (F := Ideal) (X1 m c) :=
  (relu2_keep_v1 (U5 m c)).trans (L5_v1 m c)

theorem L6_v3 : U6 m c (Proc.devRef .tc main_v3) = val_main_v3 (F := Ideal) (X1 m c) :=
  (relu2_keep_v3 (U5 m c)).trans (L5_v3 m c)

theorem L6_arg7 : U6 m c (Proc.devRef .tc main_arg7) = X7 m c :=
  (relu2_keep_arg7 (U5 m c)).trans (L5_arg7 m c)

theorem L6_arg8 : U6 m c (Proc.devRef .tc main_arg8) = X8 m c :=
  (relu2_keep_arg8 (U5 m c)).trans (L5_arg8 m c)

/-! ## The third layer -/

attribute [local irreducible] Host.gather Host.scatterAdd Host.rsqrt Ideal.matmul in
set_option maxHeartbeats 1000000 in
theorem L7_v166 : U7 m c (Proc.devRef .tc main_v166) = val_main_v166 (F := Ideal) (X0 m c) (X1 m c) (X3 m c) (X4 m c) (X5 m c) (X6 m c) (X7 m c) (X8 m c) := by
  show after opsC (U6 m c) (Proc.devRef .tc main_v166) = _
  after_results_simp
  rw [L6_v123, L6_v35, L6_v1, L6_v3, L6_arg7, L6_arg8]
  rfl

/-- The reference's result, as a function of the arguments. -/
theorem result :
    after opsC (after opsBr (after opsB1 (after opsAr (after opsA2 (after opsAw (after opsA1 (launchContents m c)))))))
      (Proc.devRef .tc main_v166) = val_main_v166 (F := Ideal) (X0 m c) (X1 m c) (X3 m c) (X4 m c) (X5 m c) (X6 m c) (X7 m c) (X8 m c) :=
  L7_v166 m c

/-! ## No operation writes an argument -/

theorem keep_arg0 (V : Valuation τ sig (Elt Ideal)) :
    after opsC (after opsBr (after opsB1 (after opsAr (after opsA2 (after opsAw (after opsA1 V))))))
      (Proc.devRef .tc main_arg0) = V (Proc.devRef .tc main_arg0) := by
  after_results_simp

theorem keep_arg1 (V : Valuation τ sig (Elt Ideal)) :
    after opsC (after opsBr (after opsB1 (after opsAr (after opsA2 (after opsAw (after opsA1 V))))))
      (Proc.devRef .tc main_arg1) = V (Proc.devRef .tc main_arg1) := by
  after_results_simp

theorem keep_arg2 (V : Valuation τ sig (Elt Ideal)) :
    after opsC (after opsBr (after opsB1 (after opsAr (after opsA2 (after opsAw (after opsA1 V))))))
      (Proc.devRef .tc main_arg2) = V (Proc.devRef .tc main_arg2) := by
  after_results_simp

theorem keep_arg3 (V : Valuation τ sig (Elt Ideal)) :
    after opsC (after opsBr (after opsB1 (after opsAr (after opsA2 (after opsAw (after opsA1 V))))))
      (Proc.devRef .tc main_arg3) = V (Proc.devRef .tc main_arg3) := by
  after_results_simp

theorem keep_arg4 (V : Valuation τ sig (Elt Ideal)) :
    after opsC (after opsBr (after opsB1 (after opsAr (after opsA2 (after opsAw (after opsA1 V))))))
      (Proc.devRef .tc main_arg4) = V (Proc.devRef .tc main_arg4) := by
  after_results_simp

theorem keep_arg5 (V : Valuation τ sig (Elt Ideal)) :
    after opsC (after opsBr (after opsB1 (after opsAr (after opsA2 (after opsAw (after opsA1 V))))))
      (Proc.devRef .tc main_arg5) = V (Proc.devRef .tc main_arg5) := by
  after_results_simp

theorem keep_arg6 (V : Valuation τ sig (Elt Ideal)) :
    after opsC (after opsBr (after opsB1 (after opsAr (after opsA2 (after opsAw (after opsA1 V))))))
      (Proc.devRef .tc main_arg6) = V (Proc.devRef .tc main_arg6) := by
  after_results_simp

theorem keep_arg7 (V : Valuation τ sig (Elt Ideal)) :
    after opsC (after opsBr (after opsB1 (after opsAr (after opsA2 (after opsAw (after opsA1 V))))))
      (Proc.devRef .tc main_arg7) = V (Proc.devRef .tc main_arg7) := by
  after_results_simp

theorem keep_arg8 (V : Valuation τ sig (Elt Ideal)) :
    after opsC (after opsBr (after opsB1 (after opsAr (after opsA2 (after opsAw (after opsA1 V))))))
      (Proc.devRef .tc main_arg8) = V (Proc.devRef .tc main_arg8) := by
  after_results_simp

end Cert.Cheb.RV

end
-- ==== Proof.lean ====
/-
  The certificate: a three-layer Chebyshev graph convolution whose dense combine step runs as a blocked kernel, against
  the same network written with whole-array matrix products.

  Both programs compute, from the edge list, the edge weights of the normalized graph operator, and for each of three
  layers the Chebyshev terms `T0 = h`, `T1 = L h`, `T2 = 2 L T1 - h` by gathers and scatter-adds over the edges —
  the same host operations in the same order. They differ only in the layer's dense step
  `(T0·W[0] + T1·W[1]) + T2·W[2] + b` (rectified in the first two layers): the reference takes three matrix products
  of whole arrays, the kernel computes the rows in 25 blocks of 4000, each block's products on the matrix unit from a
  zero accumulator with operands narrowed to bf16. Over the extended reals narrowing is the identity and a product's
  entry is the sum over the contracted axis, so an entry of the layer depends on one row of `T0, T1, T2` only and the
  blocks tile the rows: each launch leaves the reference's layer output, and the host operations between the launches
  carry that equality to the result. No algebraic law beyond this is used, so the inputs' finiteness is not needed.

  The idealization pass rewrote nothing, so the `preserves` claim is `True`.
-/
import proofs.«180513_j10187662426540_1_alg».proof.Defs
import proofs.«180513_j10187662426540_1_alg».proof.Proof.Gen.Kernel
import proofs.«180513_j10187662426540_1_alg».proof.Proof.Gen.Kernel.Skeleton
import proofs.«180513_j10187662426540_1_alg».proof.Proof.Gen.Kernel.Launch
import proofs.«180513_j10187662426540_1_alg».proof.Proof.Gen.Kernel.Points
import proofs.«180513_j10187662426540_1_alg».proof.Proof.Gen.Kernel.Frame
import proofs.«180513_j10187662426540_1_alg».proof.Proof.Gen.KernelIdeal
import proofs.«180513_j10187662426540_1_alg».proof.Proof.Gen.KernelIdeal.Skeleton
import proofs.«180513_j10187662426540_1_alg».proof.Proof.Gen.KernelIdeal.Launch
import proofs.«180513_j10187662426540_1_alg».proof.Proof.Gen.KernelIdeal.Points
import proofs.«180513_j10187662426540_1_alg».proof.Proof.Gen.KernelIdeal.Frame
import proofs.«180513_j10187662426540_1_alg».proof.Proof.Gen.ReferenceIdeal
import proofs.«180513_j10187662426540_1_alg».proof.Proof.Gen.Pre_finite_inputs
import proofs.«180513_j10187662426540_1_alg».proof.Proof.KRun
import proofs.«180513_j10187662426540_1_alg».proof.Proof.Stage3
import proofs.«180513_j10187662426540_1_alg».proof.Proof.RefRun
import proofs.«180513_j10187662426540_1_alg».proof.Proof.RefVal
import Idealize.ShloMosaic.Adequacy
import Idealize.ShloMosaic.Init

noncomputable section

namespace Cert.Proof

open Idealize.ShloMosaic Idealize.SL.Sem

/-- The three programs run, and leave their arguments as they found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c =>
    ⟨(h c Cert.ReferenceIdeal.main_arg0).trans (Cert.Cheb.RV.keep_arg0 _),
     (h c Cert.ReferenceIdeal.main_arg1).trans (Cert.Cheb.RV.keep_arg1 _),
     (h c Cert.ReferenceIdeal.main_arg2).trans (Cert.Cheb.RV.keep_arg2 _),
     (h c Cert.ReferenceIdeal.main_arg3).trans (Cert.Cheb.RV.keep_arg3 _),
     (h c Cert.ReferenceIdeal.main_arg4).trans (Cert.Cheb.RV.keep_arg4 _),
     (h c Cert.ReferenceIdeal.main_arg5).trans (Cert.Cheb.RV.keep_arg5 _),
     (h c Cert.ReferenceIdeal.main_arg6).trans (Cert.Cheb.RV.keep_arg6 _),
     (h c Cert.ReferenceIdeal.main_arg7).trans (Cert.Cheb.RV.keep_arg7 _),
     (h c Cert.ReferenceIdeal.main_arg8).trans (Cert.Cheb.RV.keep_arg8 _)⟩)
    (Cert.ReferenceIdeal.RefRun.run (F := Ideal) m ρ)

/-- From memories agreeing on the arguments, the idealized kernel and the idealized reference both end with the
    reference's result function of the arguments in their result arrays. -/
theorem algebraic : Cert.algebraic_KernelIdeal_ReferenceIdeal := by
  intro m ρ m' ρ' _ hagree
  refine ⟨fun c => Cert.ReferenceIdeal.ReadP.val_main_v166 (F := Ideal) (Cert.Cheb.KV.X0 m c) (Cert.Cheb.KV.X1 m c) (Cert.Cheb.KV.X3 m c)
    (Cert.Cheb.KV.X4 m c) (Cert.Cheb.KV.X5 m c) (Cert.Cheb.KV.X6 m c) (Cert.Cheb.KV.X7 m c) (Cert.Cheb.KV.X8 m c), ?_, ?_⟩
  · exact (θ_run Cert.KernelIdeal.defs _ _).mono (fun r h c => ⟨(h c).1.trans (Cert.Cheb.KV.f_v124 m ρ c), (h c).2⟩)
      (Cert.KernelIdeal.RunV.run m ρ)
  · refine (θ_run Cert.ReferenceIdeal.defs _ _).mono (fun r h c =>
      ⟨((h c Cert.ReferenceIdeal.main_v166).trans (Cert.Cheb.RV.result m' c)).trans ?_,
       (h c Cert.ReferenceIdeal.main_arg0).trans (Cert.Cheb.RV.keep_arg0 _),
       (h c Cert.ReferenceIdeal.main_arg1).trans (Cert.Cheb.RV.keep_arg1 _),
       (h c Cert.ReferenceIdeal.main_arg2).trans (Cert.Cheb.RV.keep_arg2 _),
       (h c Cert.ReferenceIdeal.main_arg3).trans (Cert.Cheb.RV.keep_arg3 _),
       (h c Cert.ReferenceIdeal.main_arg4).trans (Cert.Cheb.RV.keep_arg4 _),
       (h c Cert.ReferenceIdeal.main_arg5).trans (Cert.Cheb.RV.keep_arg5 _),
       (h c Cert.ReferenceIdeal.main_arg6).trans (Cert.Cheb.RV.keep_arg6 _),
       (h c Cert.ReferenceIdeal.main_arg7).trans (Cert.Cheb.RV.keep_arg7 _),
       (h c Cert.ReferenceIdeal.main_arg8).trans (Cert.Cheb.RV.keep_arg8 _)⟩)
      (Cert.ReferenceIdeal.RefRun.run (F := Ideal) m' ρ')
    obtain ⟨e0, e1, e2, e3, e4, e5, e6, e7, e8⟩ := hagree c
    rw [show Cert.Cheb.RV.X0 m' c = Cert.Cheb.KV.X0 m c from e0, show Cert.Cheb.RV.X1 m' c = Cert.Cheb.KV.X1 m c from e1,
      show Cert.Cheb.RV.X3 m' c = Cert.Cheb.KV.X3 m c from e3, show Cert.Cheb.RV.X4 m' c = Cert.Cheb.KV.X4 m c from e4,
      show Cert.Cheb.RV.X5 m' c = Cert.Cheb.KV.X5 m c from e5, show Cert.Cheb.RV.X6 m' c = Cert.Cheb.KV.X6 m c from e6,
      show Cert.Cheb.RV.X7 m' c = Cert.Cheb.KV.X7 m c from e7, show Cert.Cheb.RV.X8 m' c = Cert.Cheb.KV.X8 m c from e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
